-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x4096 : Shape := ⟨2, ![4096, 4096]⟩
abbrev S1x4096 : Shape := ⟨2, ![1, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_arg4 : FVec F S1x4096 .f32) (main_arg5 : FVec F S4096x4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4096x2048 .f32) (main_arg1 : FVec F S4096x4096 .f32) (main_arg2 : FVec F S4096x4096 .f32) (main_arg3 : FVec F S1x4096 .f32) (main_arg4 : FVec F S1x4096 .f32) (main_arg5 : FVec F S4096x4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_v13 main_v16
-- ==== Kernel.lean ====
abbrev S4096x2048 : Shape := ⟨2, ![4096, 2048]⟩
abbrev S4096x4096 : Shape := ⟨2, ![4096, 4096]⟩
abbrev S1x4096 : Shape := ⟨2, ![1, 4096]⟩
abbrev S_ : Shape := ⟨0, ![]⟩
abbrev S1024x1024 : Shape := ⟨2, ![1024, 1024]⟩
abbrev S1x1024 : Shape := ⟨2, ![1, 1024]⟩

abbrev nBuf : Space → Nat
  | .hbm => 12
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x2048, .f32⟩
  | .hbm, ⟨9, _⟩ => ⟨S4096x4096, .f32⟩
  | .hbm, ⟨10, _⟩ => ⟨S4096x4096, .bf16⟩
  | .hbm, ⟨11, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096x2048 : S_.BroadcastsInDim S4096x2048 (![] : Fin 0 → Fin S4096x2048.rank)
  concatenates_S4096x2048_S4096x2048_S4096x4096_d1 : Shape.Concatenates [S4096x2048, S4096x2048] S4096x4096 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096x4096 : Shape := ⟨2, ![4096, 4096]⟩
abbrev S1x4096 : Shape := ⟨2, ![1, 4096]⟩
abbrev S_ : Shape := ⟨0, ![]⟩
abbrev S1 : Shape := ⟨1, ![1]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .i32⟩
  | .hbm, ⟨25, _⟩ => ⟨S1, .i32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S1x4096_S4096x4096_0_1 : S1x4096.BroadcastsInDim S4096x4096 (![0, 1] : Fin 2 → Fin S4096x4096.rank)
  bcast_S_S1 : S_.BroadcastsInDim S1 (![] : Fin 0 → Fin S1.rank)
  transposes_S4096x4096_S4096x4096_1_0 : S4096x4096.Transposes [1, 0] S4096x4096
  dot_S4096x4096_S4096x4096_S4096x4096_1_0_0_1_n_n_wf : DotDims.WF S4096x4096 S4096x4096 S4096x4096 [1] [0] [0] [1] [] []
  scatter_S4096x4096_S1_S4096x2048_01_n_1_0_wf : ScatterDims.WF S4096x4096 S1 S4096x2048 [0, 1] [] [1] 0

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def scatter_S4096x4096_S1_S4096x2048_01_n_1_0 : ScatterDims S4096x4096 S1 S4096x2048 where
  updateWindowDims := [0, 1]
  insertedWindowDims := []
  scatterDimsToOperandDims := [1]
  indexVectorDim := 0
  wf := scatter_S4096x4096_S1_S4096x2048_01_n_1_0_wf

class Facts : Prop extends Facts₀ where

variable [Facts]
-- ==== Proof.Kernel.R0Base.lean ====
/-
  The first matrix product's region, the parts every control case shares.

  The grid is 4 × 4 × 4; point t has coordinates (i, j, k) with k = t mod 4 the position along the contracted axis.
  The body clears its accumulator when k = 0 and emits its output block when k = 3, so a point is in exactly one of
  three situations: k = 0 (clear, then accumulate), k ∈ {1, 2} (accumulate), k = 3 (accumulate, then emit). The two
  branch conditions are stated here in closed form over the grid, together with where the output window is idle and
  where it is written back, the memory references the body is called with, and each input window's block at a point.
-/
import proofs.«153961_j40888088658618_1_alg».proof.Proof.Gen.Kernel.Launch
import proofs.«153961_j40888088658618_1_alg».proof.Proof.Gen.Kernel.Skeleton
import proofs.«153961_j40888088658618_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The two branch conditions -/

/-- "k = 0", as the body computes it from the third grid coordinate. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3", the last position along the contracted axis. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- For k = 0 the output block is neither stored nor written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- Nor for k = 1, 2. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- For k = 3 it is stored. -/
theorem liveAt0_4_C : ∀ t : Fin cfg0.N, ¬cond0_0 (grid0.coords t) → cond0_1 (grid0.coords t) → cfg0.idle 4 (grid0.coords t) = false := by decide +kernel

/-! ## The memory references the body is called with -/

abbrev VO0_4 : View sig .tc .vmem S1024x1024 .bf16 := (Memref.whole cc0_stg4_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The accumulator: a whole buffer of the kernel's own, carried from one point to the next. -/
abbrev scM0_0 : Memref sig .tc .vmem S1024x1024 .f32 := Memref.whole cc0_scratch0
abbrev VS0_0 : View sig .tc .vmem S1024x1024 .f32 := scM0_0.view

/-- The second product's own scoped buffers (its staging buffers and its accumulator), each whole at some contents:
    the first product's region never touches them; they ride along. -/
def other0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's resting invariant, with the accumulator as a memory reference owned at some contents. -/
theorem PhiA0_eq (c : Dev nD) :
    (Pipeline.ΦA spec0 c : sProp 𝕄)
      = iprop(iprop((∃ d, owns (c : Thread nD τ) scM0_0 fullShare d) ∗ other0 c) ∗ (∃ r, prngReg c r)) := by
  unfold Pipeline.ΦA other0; rw [scopedRest0_eq]; simp only [scM0_0, owns_whole]; try rfl

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched window's block
    index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched window's block
    index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched window's block
    index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: an unfetched window's block
    index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

end Cert.Kernel.Fr

end
-- ==== Proof.Kernel.R0RunA.lean ====
/-
  The first matrix product's body, run whole in one of its three situations along the contracted axis.
-/
import proofs.«153961_j40888088658618_1_alg».proof.Proof.Kernel.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 0: the accumulator, found at anything, is cleared and then receives this point's partial product; the output
    block is not touched and is handed back as found.
    The result is the list of stores each buffer ends with (latest first), with the proof that from whole memory
    references holding the input blocks the body runs to any continuation that is given the inputs as they were and
    the stored buffers with those stores written. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) :
    Σ' (L4 : List (View.Piece (Elt F) S1024x1024 .bf16)), { LS0 : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__k1_kernel i arg3 harg3 arg4 harg4 arg5 harg5 arg6 harg6 arg7 harg7 arg8 harg8) K } := by
  refine ⟨[], ?_, fun xi4 E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.Kernel.R0RunB.lean ====
/-
  The first matrix product's body, run whole in one of its three situations along the contracted axis.
-/
import proofs.«153961_j40888088658618_1_alg».proof.Proof.Kernel.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 1 or 2: the accumulator, found at what the point before left, receives this point's partial product added to
    it; the output block is not touched and is handed back as found.
    The result is the list of stores each buffer ends with (latest first), with the proof that from whole memory
    references holding the input blocks the body runs to any continuation that is given the inputs as they were and
    the stored buffers with those stores written. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) :
    Σ' (L4 : List (View.Piece (Elt F) S1024x1024 .bf16)), { LS0 : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__k1_kernel i arg3 harg3 arg4 harg4 arg5 harg5 arg6 harg6 arg7 harg7 arg8 harg8) K } := by
  refine ⟨[], ?_, fun xi4 E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.Kernel.R0RunC.lean ====
/-
  The first matrix product's body, run whole in one of its three situations along the contracted axis.
-/
import proofs.«153961_j40888088658618_1_alg».proof.Proof.Kernel.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 3: the accumulator receives the last partial product, and the output block, found at anything, is stored whole
    from the finished sum.
    The result is the list of stores each buffer ends with (latest first), with the proof that from whole memory
    references holding the input blocks the body runs to any continuation that is given the inputs as they were and
    the stored buffers with those stores written. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) :
    Σ' (L4 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__k1_kernel i arg3 harg3 arg4 harg4 arg5 harg5 arg6 harg6 arg7 harg7 arg8 harg8) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.Kernel.R0Frame.lean ====
/-
  The first matrix product's region: the accumulation over the contracted grid axis, the region's invariant, the
  pipeline's proof data and the body obligation.

  At grid position t = 16·i + 4·j + k the body adds the k-th partial product of output block (i, j) into a VMEM
  accumulator that lives across the four positions k = 0 … 3 of that block; it clears the accumulator first at k = 0 and
  stores the output block from the finished sum at k = 3. So what the accumulator holds after position t is a function
  of what it held after position t − 1 (except at k = 0), which is what the invariant must remember from one point to
  the next.
-/
import proofs.«153961_j40888088658618_1_alg».proof.Proof.Kernel.R0RunA
import proofs.«153961_j40888088658618_1_alg».proof.Proof.Kernel.R0RunB
import proofs.«153961_j40888088658618_1_alg».proof.Proof.Kernel.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each situation leaves in the accumulator and in the output block -/

/-- Away from k = 3 the body stores nothing into the output block (the window is idle there and not written back):
    a placeholder that nothing consults. -/
def out0_A_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) : Vec F S1024x1024 .bf16 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- The body's stores into the accumulator tile it, so they cover it. -/
theorem scover0_A_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) (y : S1024x1024.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1024x1024.size (by sl_kernel_rfl) y

/-- What the body leaves in the accumulator: its stores read back. -/
def sout0_A_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) : Vec F S1024x1024 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- Away from k = 3 the body stores nothing into the output block (the window is idle there and not written back):
    a placeholder that nothing consults. -/
def out0_B_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) : Vec F S1024x1024 .bf16 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- The body's stores into the accumulator tile it, so they cover it. -/
theorem scover0_B_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) (y : S1024x1024.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1024x1024.size (by sl_kernel_rfl) y

/-- What the body leaves in the accumulator: its stores read back. -/
def sout0_B_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- For k = 3 the body's stores into the output block tile it, so they cover it. -/
theorem cover0_C_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) (y : S1024x1024.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1024x1024.size (by sl_kernel_rfl) y

/-- What the k = 3 body leaves in the output block: its stores read back. -/
def out0_C_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) : Vec F S1024x1024 .bf16 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- The body's stores into the accumulator tile it, so they cover it. -/
theorem scover0_C_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) (y : S1024x1024.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1024x1024.size (by sl_kernel_rfl) y

/-- What the body leaves in the accumulator: its stores read back. -/
def sout0_C_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the buffers hold after each point -/

/-- THE ACCUMULATION. What the output block's staging buffer and the accumulator hold after the body at grid position n
    (a pair: the output block, then the accumulator): the situation k = n mod 4 selects, run on the point's memory
    references and input blocks — for k ≠ 0 over what position n − 1 left in the accumulator. -/
def outsAt0 (c : Dev nD) : (n : ℕ) → n < cfg0.N → Vec F S1024x1024 .bf16 × Vec F S1024x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the resting invariant; before any later point the accumulator at what the point before left
    in it, the other product's buffers and the generator register riding along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ other0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ other0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ other0 c) ∗ (∃ r, prngReg c r)) := by
  cases n with
  | zero => exact absurd rfl hz
  | succ n => rfl

/-! ## The pipeline's proof data -/

/-- The arrays as the region finds them; after the body at point t each input's buffer at its block, the output's at the
    accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memory references hold their blocks; k = t mod 4 says which situation the point is
    in; the invariant hands the body the accumulator at what the point before left (at anything before the first point)
    and takes it back at this point's contents, because the body's stores cover it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the resting one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Region0

end Cert.Kernel.Fr

end
-- ==== Proof.Kernel.R1Base.lean ====
/-
  The second matrix product's region, the parts every control case shares.

  The grid is again 4 × 4 × 4 with k = t mod 4 the position along the contracted axis; the body clears its accumulator
  at k = 0 and emits the output block (the finished sum plus the bias row) at k = 3.
-/
import proofs.«153961_j40888088658618_1_alg».proof.Proof.Gen.Kernel.Launch
import proofs.«153961_j40888088658618_1_alg».proof.Proof.Gen.Kernel.Skeleton
import proofs.«153961_j40888088658618_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The two branch conditions -/

/-- "k = 0", as the body computes it from the third grid coordinate. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3", the last position along the contracted axis. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memory references the body is called with -/

abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the kernel's own, carried from one point to the next. -/
abbrev scM1_0 : Memref sig .tc .vmem S1024x1024 .f32 := Memref.whole cc1_scratch0
abbrev VS1_0 : View sig .tc .vmem S1024x1024 .f32 := scM1_0.view

/-- The first product's own scoped buffers (its staging buffers and its accumulator), each whole at some contents:
    the second product's region never touches them; they ride along. -/
def other1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- Reordering a conjunction: the last of twelve conjuncts brought to the front. -/
theorem rotate_last (b1 b2 b3 b4 b5 b6 b7 b8 b9 b10 b11 s g : sProp 𝕄) : (iprop((b1 ∗ b2 ∗ b3 ∗ b4 ∗ b5 ∗ b6 ∗ b7 ∗ b8 ∗ b9 ∗ b10 ∗ b11 ∗ s) ∗ g) : sProp 𝕄) = iprop((s ∗ b1 ∗ b2 ∗ b3 ∗ b4 ∗ b5 ∗ b6 ∗ b7 ∗ b8 ∗ b9 ∗ b10 ∗ b11) ∗ g) :=
  BI.Entails.antisymm
    (show (iprop((b1 ∗ b2 ∗ b3 ∗ b4 ∗ b5 ∗ b6 ∗ b7 ∗ b8 ∗ b9 ∗ b10 ∗ b11 ∗ s) ∗ g) : sProp 𝕄) ⊢ iprop((s ∗ b1 ∗ b2 ∗ b3 ∗ b4 ∗ b5 ∗ b6 ∗ b7 ∗ b8 ∗ b9 ∗ b10 ∗ b11) ∗ g) from by
      iintro ⟨⟨B1, B2, B3, B4, B5, B6, B7, B8, B9, B10, B11, HS⟩, Hg⟩
      isplitr [Hg]
      · isplitl [HS]; · iexact HS
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        iexact B11
      iexact Hg)
    (show (iprop((s ∗ b1 ∗ b2 ∗ b3 ∗ b4 ∗ b5 ∗ b6 ∗ b7 ∗ b8 ∗ b9 ∗ b10 ∗ b11) ∗ g) : sProp 𝕄) ⊢ iprop((b1 ∗ b2 ∗ b3 ∗ b4 ∗ b5 ∗ b6 ∗ b7 ∗ b8 ∗ b9 ∗ b10 ∗ b11 ∗ s) ∗ g) from by
      iintro ⟨⟨HS, B1, B2, B3, B4, B5, B6, B7, B8, B9, B10, B11⟩, Hg⟩
      isplitr [Hg]
      ·
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [B11]; · iexact B11
        iexact HS
      iexact Hg)

/-- The region's resting invariant, with the accumulator as a memory reference owned at some contents (the accumulator
    is the last of the region's scoped buffers: brought to the front by reordering the conjunction). -/
theorem PhiA1_eq (c : Dev nD) :
    (Pipeline.ΦA spec1 c : sProp 𝕄)
      = iprop(iprop((∃ d, owns (c : Thread nD τ) scM1_0 fullShare d) ∗ other1 c) ∗ (∃ r, prngReg c r)) := by
  unfold Pipeline.ΦA other1; rw [scopedRest1_eq]; simp only [scM1_0, owns_whole]
  exact rotate_last _ _ _ _ _ _ _ _ _ _ _ _ _

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched window's block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: an unfetched window's block
    index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: an unfetched window's block
    index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

end Cert.Kernel.Fr

end
-- ==== Proof.Kernel.R1RunA.lean ====
/-
  The second matrix product's body, run whole in one of its three situations along the contracted axis.
-/
import proofs.«153961_j40888088658618_1_alg».proof.Proof.Kernel.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 0: the accumulator, found at anything, is cleared and then receives this point's partial product; the output
    block is not touched and is handed back as found.
    The result is the list of stores each buffer ends with (latest first), with the proof that from whole memory
    references holding the input blocks the body runs to any continuation that is given the inputs as they were and
    the stored buffers with those stores written. -/
noncomputable def kernelRun1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__k2_kernel i arg3 harg3 arg4 harg4 arg5 harg5 arg6 harg6 arg7 harg7) K } := by
  refine ⟨[], ?_, fun xi3 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.Kernel.R1RunB.lean ====
/-
  The second matrix product's body, run whole in one of its three situations along the contracted axis.
-/
import proofs.«153961_j40888088658618_1_alg».proof.Proof.Kernel.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 1 or 2: the accumulator, found at what the point before left, receives this point's partial product added to
    it; the output block is not touched and is handed back as found.
    The result is the list of stores each buffer ends with (latest first), with the proof that from whole memory
    references holding the input blocks the body runs to any continuation that is given the inputs as they were and
    the stored buffers with those stores written. -/
noncomputable def kernelRun1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__k2_kernel i arg3 harg3 arg4 harg4 arg5 harg5 arg6 harg6 arg7 harg7) K } := by
  refine ⟨[], ?_, fun xi3 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.Kernel.R1RunC.lean ====
/-
  The second matrix product's body, run whole in one of its three situations along the contracted axis.
-/
import proofs.«153961_j40888088658618_1_alg».proof.Proof.Kernel.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 3: the accumulator receives the last partial product, and the output block, found at anything, is stored whole
    from the finished sum.
    The result is the list of stores each buffer ends with (latest first), with the proof that from whole memory
    references holding the input blocks the body runs to any continuation that is given the inputs as they were and
    the stored buffers with those stores written. -/
noncomputable def kernelRun1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__k2_kernel i arg3 harg3 arg4 harg4 arg5 harg5 arg6 harg6 arg7 harg7) K } := by
  refine ⟨?_, ?_, fun E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.Kernel.R1Frame.lean ====
/-
  The second matrix product's region: the accumulation over the contracted grid axis, the region's invariant, the
  pipeline's proof data and the body obligation. Its structure is the first region's: an accumulator cleared at k = 0,
  added into at every k, and read out (with the bias row added) into the output block at k = 3.
-/
import proofs.«153961_j40888088658618_1_alg».proof.Proof.Kernel.R1RunA
import proofs.«153961_j40888088658618_1_alg».proof.Proof.Kernel.R1RunB
import proofs.«153961_j40888088658618_1_alg».proof.Proof.Kernel.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each situation leaves in the accumulator and in the output block -/

/-- Away from k = 3 the body stores nothing into the output block (the window is idle there and not written back):
    a placeholder that nothing consults. -/
def out1_A_3 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The body's stores into the accumulator tile it, so they cover it. -/
theorem scover1_A_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the body leaves in the accumulator: its stores read back. -/
def sout1_A_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Away from k = 3 the body stores nothing into the output block (the window is idle there and not written back):
    a placeholder that nothing consults. -/
def out1_B_3 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The body's stores into the accumulator tile it, so they cover it. -/
theorem scover1_B_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What the body leaves in the accumulator: its stores read back. -/
def sout1_B_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- For k = 3 the body's stores into the output block tile it, so they cover it. -/
theorem cover1_C_3 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What the k = 3 body leaves in the output block: its stores read back. -/
def out1_C_3 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- The body's stores into the accumulator tile it, so they cover it. -/
theorem scover1_C_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What the body leaves in the accumulator: its stores read back. -/
def sout1_C_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- THE ACCUMULATION. What the output block's staging buffer and the accumulator hold after the body at grid position n
    (a pair: the output block, then the accumulator): the situation k = n mod 4 selects, run on the point's memory
    references and input blocks — for k ≠ 0 over what position n − 1 left in the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the resting invariant; before any later point the accumulator at what the point before left
    in it, the other product's buffers and the generator register riding along. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ other1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ other1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ other1 c) ∗ (∃ r, prngReg c r)) := by
  cases n with
  | zero => exact absurd rfl hz
  | succ n => rfl

/-! ## The pipeline's proof data -/

/-- The arrays as the region finds them; after the body at point t each input's buffer at its block, the output's at the
    accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memory references hold their blocks; k = t mod 4 says which situation the point is
    in; the invariant hands the body the accumulator at what the point before left (at anything before the first point)
    and takes it back at this point's contents, because the body's stores cover it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Fr

end
-- ==== Proof.Kernel.Run.lean ====
/-
  The whole program as a run: a stretch of host operations (the masked weights W = W_tensor ⊙ W_mask and Ux widened with
  zero columns), then the first product's region, then the second product's region.

  The contents of the core's buffers are followed from the launch memory through the three items: after the host
  stretch; after the first region (its arrays at what its write-backs leave, everything else as it was); after the
  second region. The last contents, read against the final state, give the result array by name and each argument array
  back at its launch contents: no host operation writes an argument, and a region only reads one through an input window.
-/
import proofs.«153961_j40888088658618_1_alg».proof.Proof.Kernel.R0Frame
import proofs.«153961_j40888088658618_1_alg».proof.Proof.Kernel.R1Frame
import proofs.«153961_j40888088658618_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host stretch: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: the second region's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region: the end. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host stretch writes only its own four results. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := W1_of m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- The result array at the end is what the second region's write-backs leave in its output window's array. -/
theorem W3_main_v4 (c : Dev nD) : W3 m ρ c (Proc.devRef .tc main_v4) = (dat1 (V2 m ρ) c).arrAt 3 cfg1.N :=
  W3_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first product's region as a segment: entered with every unscoped buffer at the contents before it, left with the
    region's arrays at what its write-backs leave and every other buffer as entered. Its arrays are split out of the
    unscoped buffers at entry and put back at exit; the generator register goes into the region's invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ Q : sProp 𝕄, (iprop((∃ r, prngReg c r) ∗ Q ∗ Pipeline.scopedRest spec0 c) : sProp 𝕄) ⊢ Pipeline.ΦA spec0 c := fun Q => by
      unfold Pipeline.ΦA
      iintro ⟨Hp, -, Hr⟩
      isplitl [Hr]; · iexact Hr
      iexact Hp
    exact (h1 _).trans (hin0 (V1 m ρ) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product's region as a segment: entered with every unscoped buffer at the contents before it, left with the
    region's arrays at what its write-backs leave and every other buffer as entered. Its arrays are split out of the
    unscoped buffers at entry and put back at exit; the generator register goes into the region's invariant and comes
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ Q : sProp 𝕄, (iprop((∃ r, prngReg c r) ∗ Q ∗ Pipeline.scopedRest spec1 c) : sProp 𝕄) ⊢ Pipeline.ΦA spec1 c := fun Q => by
      unfold Pipeline.ΦA
      iintro ⟨Hp, -, Hr⟩
      isplitl [Hr]; · iexact Hr
      iexact Hp
    exact (h1 _).trans (hin1 (V2 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state has the result array at what the second region's write-backs leave in it and every
    argument array as launched. -/
theorem run_named : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- THE FRAME: the run with the result's clause dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Fr

end
-- ==== Proof.KernelIdeal.R0Base.lean ====
/-
  The first matrix product's region, the parts every control case shares.

  The grid is 4 × 4 × 4; point t has coordinates (i, j, k) with k = t mod 4 the position along the contracted axis.
  The body clears its accumulator when k = 0 and emits its output block when k = 3, so a point is in exactly one of
  three situations: k = 0 (clear, then accumulate), k ∈ {1, 2} (accumulate), k = 3 (accumulate, then emit). The two
  branch conditions are stated here in closed form over the grid, together with where the output window is idle and
  where it is written back, the memory references the body is called with, and each input window's block at a point.
-/
import proofs.«153961_j40888088658618_1_alg».proof.Proof.Gen.KernelIdeal.Launch
import proofs.«153961_j40888088658618_1_alg».proof.Proof.Gen.KernelIdeal.Skeleton
import proofs.«153961_j40888088658618_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The two branch conditions -/

/-- "k = 0", as the body computes it from the third grid coordinate. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3", the last position along the contracted axis. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- For k = 0 the output block is neither stored nor written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- Nor for k = 1, 2. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- For k = 3 it is stored. -/
theorem liveAt0_4_C : ∀ t : Fin cfg0.N, ¬cond0_0 (grid0.coords t) → cond0_1 (grid0.coords t) → cfg0.idle 4 (grid0.coords t) = false := by decide +kernel

/-! ## The memory references the body is called with -/

abbrev VO0_4 : View sig .tc .vmem S1024x1024 .bf16 := (Memref.whole cc0_stg4_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The accumulator: a whole buffer of the kernel's own, carried from one point to the next. -/
abbrev scM0_0 : Memref sig .tc .vmem S1024x1024 .f32 := Memref.whole cc0_scratch0
abbrev VS0_0 : View sig .tc .vmem S1024x1024 .f32 := scM0_0.view

/-- The second product's own scoped buffers (its staging buffers and its accumulator), each whole at some contents:
    the first product's region never touches them; they ride along. -/
def other0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's resting invariant, with the accumulator as a memory reference owned at some contents. -/
theorem PhiA0_eq (c : Dev nD) :
    (Pipeline.ΦA spec0 c : sProp 𝕄)
      = iprop(iprop((∃ d, owns (c : Thread nD τ) scM0_0 fullShare d) ∗ other0 c) ∗ (∃ r, prngReg c r)) := by
  unfold Pipeline.ΦA other0; rw [scopedRest0_eq]; simp only [scM0_0, owns_whole]; try rfl

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched window's block
    index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched window's block
    index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched window's block
    index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: an unfetched window's block
    index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

end Cert.KernelIdeal.Fr

end
-- ==== Proof.KernelIdeal.R0RunA.lean ====
/-
  The first matrix product's body, run whole in one of its three situations along the contracted axis.
-/
import proofs.«153961_j40888088658618_1_alg».proof.Proof.KernelIdeal.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 0: the accumulator, found at anything, is cleared and then receives this point's partial product; the output
    block is not touched and is handed back as found.
    The result is the list of stores each buffer ends with (latest first), with the proof that from whole memory
    references holding the input blocks the body runs to any continuation that is given the inputs as they were and
    the stored buffers with those stores written. -/
noncomputable def kernelRun0_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) :
    Σ' (L4 : List (View.Piece (Elt F) S1024x1024 .bf16)), { LS0 : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__k1_kernel i arg3 harg3 arg4 harg4 arg5 harg5 arg6 harg6 arg7 harg7 arg8 harg8) K } := by
  refine ⟨[], ?_, fun xi4 E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KernelIdeal.R0RunB.lean ====
/-
  The first matrix product's body, run whole in one of its three situations along the contracted axis.
-/
import proofs.«153961_j40888088658618_1_alg».proof.Proof.KernelIdeal.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 1 or 2: the accumulator, found at what the point before left, receives this point's partial product added to
    it; the output block is not touched and is handed back as found.
    The result is the list of stores each buffer ends with (latest first), with the proof that from whole memory
    references holding the input blocks the body runs to any continuation that is given the inputs as they were and
    the stored buffers with those stores written. -/
noncomputable def kernelRun0_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) :
    Σ' (L4 : List (View.Piece (Elt F) S1024x1024 .bf16)), { LS0 : List (View.Piece (Elt F) S1024x1024 .f32) //
      ∀ (xi4 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__k1_kernel i arg3 harg3 arg4 harg4 arg5 harg5 arg6 harg6 arg7 harg7 arg8 harg8) K } := by
  refine ⟨[], ?_, fun xi4 E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KernelIdeal.R0RunC.lean ====
/-
  The first matrix product's body, run whole in one of its three situations along the contracted axis.
-/
import proofs.«153961_j40888088658618_1_alg».proof.Proof.KernelIdeal.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 3: the accumulator receives the last partial product, and the output block, found at anything, is stored whole
    from the finished sum.
    The result is the list of stores each buffer ends with (latest first), with the proof that from whole memory
    references holding the input blocks the body runs to any continuation that is given the inputs as they were and
    the stored buffers with those stores written. -/
noncomputable def kernelRun0_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) :
    Σ' (L4 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__k1_kernel i arg3 harg3 arg4 harg4 arg5 harg5 arg6 harg6 arg7 harg7 arg8 harg8) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KernelIdeal.R0Frame.lean ====
/-
  The first matrix product's region: the accumulation over the contracted grid axis, the region's invariant, the
  pipeline's proof data and the body obligation.

  At grid position t = 16·i + 4·j + k the body adds the k-th partial product of output block (i, j) into a VMEM
  accumulator that lives across the four positions k = 0 … 3 of that block; it clears the accumulator first at k = 0 and
  stores the output block from the finished sum at k = 3. So what the accumulator holds after position t is a function
  of what it held after position t − 1 (except at k = 0), which is what the invariant must remember from one point to
  the next.
-/
import proofs.«153961_j40888088658618_1_alg».proof.Proof.KernelIdeal.R0RunA
import proofs.«153961_j40888088658618_1_alg».proof.Proof.KernelIdeal.R0RunB
import proofs.«153961_j40888088658618_1_alg».proof.Proof.KernelIdeal.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each situation leaves in the accumulator and in the output block -/

/-- Away from k = 3 the body stores nothing into the output block (the window is idle there and not written back):
    a placeholder that nothing consults. -/
def out0_A_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) : Vec F S1024x1024 .bf16 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- The body's stores into the accumulator tile it, so they cover it. -/
theorem scover0_A_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) (y : S1024x1024.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1024x1024.size (by sl_kernel_rfl) y

/-- What the body leaves in the accumulator: its stores read back. -/
def sout0_A_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) : Vec F S1024x1024 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- Away from k = 3 the body stores nothing into the output block (the window is idle there and not written back):
    a placeholder that nothing consults. -/
def out0_B_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) : Vec F S1024x1024 .bf16 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- The body's stores into the accumulator tile it, so they cover it. -/
theorem scover0_B_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) (y : S1024x1024.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1024x1024.size (by sl_kernel_rfl) y

/-- What the body leaves in the accumulator: its stores read back. -/
def sout0_B_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- For k = 3 the body's stores into the output block tile it, so they cover it. -/
theorem cover0_C_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) (y : S1024x1024.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1024x1024.size (by sl_kernel_rfl) y

/-- What the k = 3 body leaves in the output block: its stores read back. -/
def out0_C_4 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) : Vec F S1024x1024 .bf16 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- The body's stores into the accumulator tile it, so they cover it. -/
theorem scover0_C_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) (y : S1024x1024.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1024x1024.size (by sl_kernel_rfl) y

/-- What the body leaves in the accumulator: its stores read back. -/
def sout0_C_0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the buffers hold after each point -/

/-- THE ACCUMULATION. What the output block's staging buffer and the accumulator hold after the body at grid position n
    (a pair: the output block, then the accumulator): the situation k = n mod 4 selects, run on the point's memory
    references and input blocks — for k ≠ 0 over what position n − 1 left in the accumulator. -/
def outsAt0 (c : Dev nD) : (n : ℕ) → n < cfg0.N → Vec F S1024x1024 .bf16 × Vec F S1024x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the resting invariant; before any later point the accumulator at what the point before left
    in it, the other product's buffers and the generator register riding along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ other0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ other0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ other0 c) ∗ (∃ r, prngReg c r)) := by
  cases n with
  | zero => exact absurd rfl hz
  | succ n => rfl

/-! ## The pipeline's proof data -/

/-- The arrays as the region finds them; after the body at point t each input's buffer at its block, the output's at the
    accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memory references hold their blocks; k = t mod 4 says which situation the point is
    in; the invariant hands the body the accumulator at what the point before left (at anything before the first point)
    and takes it back at this point's contents, because the body's stores cover it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the resting one back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Region0

end Cert.KernelIdeal.Fr

end
-- ==== Proof.KernelIdeal.R1Base.lean ====
/-
  The second matrix product's region, the parts every control case shares.

  The grid is again 4 × 4 × 4 with k = t mod 4 the position along the contracted axis; the body clears its accumulator
  at k = 0 and emits the output block (the finished sum plus the bias row) at k = 3.
-/
import proofs.«153961_j40888088658618_1_alg».proof.Proof.Gen.KernelIdeal.Launch
import proofs.«153961_j40888088658618_1_alg».proof.Proof.Gen.KernelIdeal.Skeleton
import proofs.«153961_j40888088658618_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The two branch conditions -/

/-- "k = 0", as the body computes it from the third grid coordinate. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3", the last position along the contracted axis. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memory references the body is called with -/

abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the kernel's own, carried from one point to the next. -/
abbrev scM1_0 : Memref sig .tc .vmem S1024x1024 .f32 := Memref.whole cc1_scratch0
abbrev VS1_0 : View sig .tc .vmem S1024x1024 .f32 := scM1_0.view

/-- The first product's own scoped buffers (its staging buffers and its accumulator), each whole at some contents:
    the second product's region never touches them; they ride along. -/
def other1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- Reordering a conjunction: the last of twelve conjuncts brought to the front. -/
theorem rotate_last (b1 b2 b3 b4 b5 b6 b7 b8 b9 b10 b11 s g : sProp 𝕄) : (iprop((b1 ∗ b2 ∗ b3 ∗ b4 ∗ b5 ∗ b6 ∗ b7 ∗ b8 ∗ b9 ∗ b10 ∗ b11 ∗ s) ∗ g) : sProp 𝕄) = iprop((s ∗ b1 ∗ b2 ∗ b3 ∗ b4 ∗ b5 ∗ b6 ∗ b7 ∗ b8 ∗ b9 ∗ b10 ∗ b11) ∗ g) :=
  BI.Entails.antisymm
    (show (iprop((b1 ∗ b2 ∗ b3 ∗ b4 ∗ b5 ∗ b6 ∗ b7 ∗ b8 ∗ b9 ∗ b10 ∗ b11 ∗ s) ∗ g) : sProp 𝕄) ⊢ iprop((s ∗ b1 ∗ b2 ∗ b3 ∗ b4 ∗ b5 ∗ b6 ∗ b7 ∗ b8 ∗ b9 ∗ b10 ∗ b11) ∗ g) from by
      iintro ⟨⟨B1, B2, B3, B4, B5, B6, B7, B8, B9, B10, B11, HS⟩, Hg⟩
      isplitr [Hg]
      · isplitl [HS]; · iexact HS
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        iexact B11
      iexact Hg)
    (show (iprop((s ∗ b1 ∗ b2 ∗ b3 ∗ b4 ∗ b5 ∗ b6 ∗ b7 ∗ b8 ∗ b9 ∗ b10 ∗ b11) ∗ g) : sProp 𝕄) ⊢ iprop((b1 ∗ b2 ∗ b3 ∗ b4 ∗ b5 ∗ b6 ∗ b7 ∗ b8 ∗ b9 ∗ b10 ∗ b11 ∗ s) ∗ g) from by
      iintro ⟨⟨HS, B1, B2, B3, B4, B5, B6, B7, B8, B9, B10, B11⟩, Hg⟩
      isplitr [Hg]
      ·
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [B11]; · iexact B11
        iexact HS
      iexact Hg)

/-- The region's resting invariant, with the accumulator as a memory reference owned at some contents (the accumulator
    is the last of the region's scoped buffers: brought to the front by reordering the conjunction). -/
theorem PhiA1_eq (c : Dev nD) :
    (Pipeline.ΦA spec1 c : sProp 𝕄)
      = iprop(iprop((∃ d, owns (c : Thread nD τ) scM1_0 fullShare d) ∗ other1 c) ∗ (∃ r, prngReg c r)) := by
  unfold Pipeline.ΦA other1; rw [scopedRest1_eq]; simp only [scM1_0, owns_whole]
  exact rotate_last _ _ _ _ _ _ _ _ _ _ _ _ _

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched window's block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: an unfetched window's block
    index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: an unfetched window's block
    index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

end Cert.KernelIdeal.Fr

end
-- ==== Proof.KernelIdeal.R1RunA.lean ====
/-
  The second matrix product's body, run whole in one of its three situations along the contracted axis.
-/
import proofs.«153961_j40888088658618_1_alg».proof.Proof.KernelIdeal.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 0: the accumulator, found at anything, is cleared and then receives this point's partial product; the output
    block is not touched and is handed back as found.
    The result is the list of stores each buffer ends with (latest first), with the proof that from whole memory
    references holding the input blocks the body runs to any continuation that is given the inputs as they were and
    the stored buffers with those stores written. -/
noncomputable def kernelRun1_A (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__k2_kernel i arg3 harg3 arg4 harg4 arg5 harg5 arg6 harg6 arg7 harg7) K } := by
  refine ⟨[], ?_, fun xi3 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KernelIdeal.R1RunB.lean ====
/-
  The second matrix product's body, run whole in one of its three situations along the contracted axis.
-/
import proofs.«153961_j40888088658618_1_alg».proof.Proof.KernelIdeal.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 1 or 2: the accumulator, found at what the point before left, receives this point's partial product added to
    it; the output block is not touched and is handed back as found.
    The result is the list of stores each buffer ends with (latest first), with the proof that from whole memory
    references holding the input blocks the body runs to any continuation that is given the inputs as they were and
    the stored buffers with those stores written. -/
noncomputable def kernelRun1_B (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__k2_kernel i arg3 harg3 arg4 harg4 arg5 harg5 arg6 harg6 arg7 harg7) K } := by
  refine ⟨[], ?_, fun xi3 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KernelIdeal.R1RunC.lean ====
/-
  The second matrix product's body, run whole in one of its three situations along the contracted axis.
-/
import proofs.«153961_j40888088658618_1_alg».proof.Proof.KernelIdeal.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run whole at a point with k = 3: the accumulator receives the last partial product, and the output block, found at anything, is stored whole
    from the finished sum.
    The result is the list of stores each buffer ends with (latest first), with the proof that from whole memory
    references holding the input blocks the body runs to any continuation that is given the inputs as they were and
    the stored buffers with those stores written. -/
noncomputable def kernelRun1_C (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__k2_kernel i arg3 harg3 arg4 harg4 arg5 harg5 arg6 harg6 arg7 harg7) K } := by
  refine ⟨?_, ?_, fun E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KernelIdeal.R1Frame.lean ====
/-
  The second matrix product's region: the accumulation over the contracted grid axis, the region's invariant, the
  pipeline's proof data and the body obligation. Its structure is the first region's: an accumulator cleared at k = 0,
  added into at every k, and read out (with the bias row added) into the output block at k = 3.
-/
import proofs.«153961_j40888088658618_1_alg».proof.Proof.KernelIdeal.R1RunA
import proofs.«153961_j40888088658618_1_alg».proof.Proof.KernelIdeal.R1RunB
import proofs.«153961_j40888088658618_1_alg».proof.Proof.KernelIdeal.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each situation leaves in the accumulator and in the output block -/

/-- Away from k = 3 the body stores nothing into the output block (the window is idle there and not written back):
    a placeholder that nothing consults. -/
def out1_A_3 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The body's stores into the accumulator tile it, so they cover it. -/
theorem scover1_A_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the body leaves in the accumulator: its stores read back. -/
def sout1_A_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Away from k = 3 the body stores nothing into the output block (the window is idle there and not written back):
    a placeholder that nothing consults. -/
def out1_B_3 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The body's stores into the accumulator tile it, so they cover it. -/
theorem scover1_B_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What the body leaves in the accumulator: its stores read back. -/
def sout1_B_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- For k = 3 the body's stores into the output block tile it, so they cover it. -/
theorem cover1_C_3 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What the k = 3 body leaves in the output block: its stores read back. -/
def out1_C_3 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- The body's stores into the accumulator tile it, so they cover it. -/
theorem scover1_C_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What the body leaves in the accumulator: its stores read back. -/
def sout1_C_0 (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- THE ACCUMULATION. What the output block's staging buffer and the accumulator hold after the body at grid position n
    (a pair: the output block, then the accumulator): the situation k = n mod 4 selects, run on the point's memory
    references and input blocks — for k ≠ 0 over what position n − 1 left in the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the resting invariant; before any later point the accumulator at what the point before left
    in it, the other product's buffers and the generator register riding along. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ other1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ other1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ other1 c) ∗ (∃ r, prngReg c r)) := by
  cases n with
  | zero => exact absurd rfl hz
  | succ n => rfl

/-! ## The pipeline's proof data -/

/-- The arrays as the region finds them; after the body at point t each input's buffer at its block, the output's at the
    accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memory references hold their blocks; k = t mod 4 says which situation the point is
    in; the invariant hands the body the accumulator at what the point before left (at anything before the first point)
    and takes it back at this point's contents, because the body's stores cover it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the resting one back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Fr

end
-- ==== Proof.KernelIdeal.Run.lean ====
/-
  The whole program as a run: a stretch of host operations (the masked weights W = W_tensor ⊙ W_mask and Ux widened with
  zero columns), then the first product's region, then the second product's region.

  The contents of the core's buffers are followed from the launch memory through the three items: after the host
  stretch; after the first region (its arrays at what its write-backs leave, everything else as it was); after the
  second region. The last contents, read against the final state, give the result array by name and each argument array
  back at its launch contents: no host operation writes an argument, and a region only reads one through an input window.
-/
import proofs.«153961_j40888088658618_1_alg».proof.Proof.KernelIdeal.R0Frame
import proofs.«153961_j40888088658618_1_alg».proof.Proof.KernelIdeal.R1Frame
import proofs.«153961_j40888088658618_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host stretch: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: the second region's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region: the end. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host stretch writes only its own four results. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := W1_of m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- The result array at the end is what the second region's write-backs leave in its output window's array. -/
theorem W3_main_v4 (c : Dev nD) : W3 m ρ c (Proc.devRef .tc main_v4) = (dat1 (V2 m ρ) c).arrAt 3 cfg1.N :=
  W3_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first product's region as a segment: entered with every unscoped buffer at the contents before it, left with the
    region's arrays at what its write-backs leave and every other buffer as entered. Its arrays are split out of the
    unscoped buffers at entry and put back at exit; the generator register goes into the region's invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ Q : sProp 𝕄, (iprop((∃ r, prngReg c r) ∗ Q ∗ Pipeline.scopedRest spec0 c) : sProp 𝕄) ⊢ Pipeline.ΦA spec0 c := fun Q => by
      unfold Pipeline.ΦA
      iintro ⟨Hp, -, Hr⟩
      isplitl [Hr]; · iexact Hr
      iexact Hp
    exact (h1 _).trans (hin0 (V1 m ρ) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product's region as a segment: entered with every unscoped buffer at the contents before it, left with the
    region's arrays at what its write-backs leave and every other buffer as entered. Its arrays are split out of the
    unscoped buffers at entry and put back at exit; the generator register goes into the region's invariant and comes
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ Q : sProp 𝕄, (iprop((∃ r, prngReg c r) ∗ Q ∗ Pipeline.scopedRest spec1 c) : sProp 𝕄) ⊢ Pipeline.ΦA spec1 c := fun Q => by
      unfold Pipeline.ΦA
      iintro ⟨Hp, -, Hr⟩
      isplitl [Hr]; · iexact Hr
      iexact Hp
    exact (h1 _).trans (hin1 (V2 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state has the result array at what the second region's write-backs leave in it and every
    argument array as launched. -/
theorem run_named : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- THE FRAME: the run with the result's clause dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Fr

end
-- ==== Proof.Spec.lean ====
/-
  The function both programs compute, on the extended reals.

  With  W = W_tensor ⊙ W_mask  (entrywise product)  and  ρ(x) = σ(4·(x − ½)),  σ(y) = 1/(1 + e^{−y}):

    hidden[i,j] = (∑ₖ ρ(s[i,k]) · W[k,j]) + b_odd[j]
    pad[i,j]    = Ux[i,j] for j < 2048, and 0 otherwise
    P[i,j]      = ρ(hidden[i,j] + pad[i,j])
    out[i,j]    = (∑ₖ P[i,k] · W[j,k]) + b_even[j]

  Every sum is over all 4096 values of k, in the extended reals' own addition, which is commutative and
  associative at the infinities too; so any grouping of the terms — in particular four consecutive runs of 1024 —
  gives the same value, and no finiteness of the inputs is used anywhere.
-/
import Idealize.ShloMosaic.PureOps.Ideal
import Idealize.ShloMosaic.Lib.ValueIdx

noncomputable section

namespace Cert.Bridge

open Idealize.ShloMosaic Idealize.ShloMosaic.ValueIdx

/-- ρ(x) = σ(4·(x − ½)); 4 and ½ are the two binary32 words the programs spell, both exact. -/
def rho (x : EReal) : EReal :=
  Ideal.logistic (Ideal.ofBits .f32 0x40800000#32 * (x - Ideal.ofBits .f32 0x3F000000#32))

/-- A 4096×4096 array read at a row and a column. -/
abbrev at44 (x : (⟨2, ![4096, 4096]⟩ : Shape).Idx → EReal) (a b : Fin 4096) : EReal := x (ix2 a b)
/-- A 4096×2048 array read at a row and a column. -/
abbrev at42 (x : (⟨2, ![4096, 2048]⟩ : Shape).Idx → EReal) (a : Fin 4096) (b : Fin 2048) : EReal := x (ix2 a b)
/-- A 1×4096 array read at a column. -/
abbrev at14 (x : (⟨2, ![1, 4096]⟩ : Shape).Idx → EReal) (b : Fin 4096) : EReal := x (ix2 (0 : Fin 1) b)

section
variable (Ux : (⟨2, ![4096, 2048]⟩ : Shape).Idx → EReal)
  (s Wt Wm : (⟨2, ![4096, 4096]⟩ : Shape).Idx → EReal)
  (be bo : (⟨2, ![1, 4096]⟩ : Shape).Idx → EReal)

/-- The masked weight matrix. -/
def W (a b : Fin 4096) : EReal := at44 Wt a b * at44 Wm a b

/-- The first product with its bias: row i of ρ(s) against column j of W, plus b_odd[j]. -/
def hidden (i j : Fin 4096) : EReal := (∑ k : Fin 4096, rho (at44 s i k) * W Wt Wm k j) + at14 bo j

/-- Ux widened with zero columns to 4096 columns. -/
def pad (i j : Fin 4096) : EReal := if h : j.val < 2048 then at42 Ux i ⟨j.val, h⟩ else 0

/-- The activations fed to the second product. -/
def P (i j : Fin 4096) : EReal := rho (hidden s Wt Wm bo i j + pad Ux i j)

/-- The result: row i of P against ROW j of W (a product with the transpose), plus b_even[j]. -/
def out (i j : Fin 4096) : EReal := (∑ k : Fin 4096, P Ux s Wt Wm bo i k * W Wt Wm j k) + at14 be j

/-- The result as an array over the 4096×4096 index type. -/
def outArr : (⟨2, ![4096, 4096]⟩ : Shape).Idx → EReal := fun i => out Ux s Wt Wm be bo (i 0) (i 1)

/-- The activations as an array over the 4096×4096 index type. -/
def PArr : (⟨2, ![4096, 4096]⟩ : Shape).Idx → EReal := fun i => P Ux s Wt Wm bo (i 0) (i 1)

end

end Cert.Bridge

end
-- ==== Proof.RefSide.lean ====
/-
  The reference side: the reference program's result, read index by index, is the specification's array.

  The reference computes, in this order:  W = W_tensor ⊙ W_mask;  ρ(s) as 1 / (1 + e^{−4·(s − ½)});  the product
  ρ(s)·W plus the row b_odd;  a scatter that adds Ux into the first 2048 columns of that;  ρ of the result;  the
  product with the transpose of W plus the row b_even.  Each stage is read at a row and a column; the two products
  are sums over all 4096 values of the contracted index; the scatter, a left fold over the 4096·2048 update
  indices, is read at one index by showing that at most one update index lands there (the start index is 0 and the
  window is the whole update, so update (p, q) lands at operand (p, q)).  Everything holds on all extended reals:
  the only literal evaluated is 1.0, so that 1 / (1 + e^{−x}) is the logistic function; x + 0 = x widens Ux.
-/
import proofs.«153961_j40888088658618_1_alg».proof.Proof.Gen.ReferenceIdeal.Read
import proofs.«153961_j40888088658618_1_alg».proof.Proof.Spec
import proofs.«153961_j40888088658618_1_alg».proof.Proof.Gen.Pre_finite_inputs
import proofs.«153961_j40888088658618_1_alg».proof.Defs
import Idealize.ShloMosaic.Lib.IdealHost

noncomputable section

namespace Cert.Bridge.Ref

open Cert.ReferenceIdeal Cert.ReferenceIdeal.Gen Idealize.ShloMosaic Idealize.ShloMosaic.TcCoe Idealize.SL.Sem
  Idealize.ShloMosaic.StableHlo Idealize.ShloMosaic.ValueIdx

/-! ## A scatter read at one index -/

section Fold
variable {ι κ α : Type} [DecidableEq ι]

/-- One step of a scatter: the update numbered `n` lands at `g n` (or nowhere) and is combined there by `f`. -/
def scatStep (g : κ → Option ι) (f : α → α → α) (v : κ → α) (r : ι → α) (n : κ) : ι → α :=
  match g n with
  | some i => fun i' => if i' = i then f (r i) (v n) else r i'
  | none => r

theorem scatStep_miss (g : κ → Option ι) (f : α → α → α) (v : κ → α) (r : ι → α) (n : κ) (i' : ι)
    (h : g n ≠ some i') : scatStep g f v r n i' = r i' := by
  unfold scatStep
  cases hg : g n with
  | none => rfl
  | some i =>
    have : i' ≠ i := fun e => h (by rw [hg, e])
    simp only [if_neg this]

theorem scatStep_hit (g : κ → Option ι) (f : α → α → α) (v : κ → α) (r : ι → α) (n : κ) (i' : ι)
    (h : g n = some i') : scatStep g f v r n i' = f (r i') (v n) := by
  unfold scatStep
  rw [h]
  exact if_pos rfl

/-- An index no update lands at keeps the operand's element. -/
theorem foldl_scatStep_miss (g : κ → Option ι) (f : α → α → α) (v : κ → α) (i' : ι) :
    ∀ (L : List κ) (r : ι → α), (∀ n ∈ L, g n ≠ some i') → L.foldl (scatStep g f v) r i' = r i'
  | [], _, _ => rfl
  | a :: L, r, h => by
    rw [List.foldl_cons, foldl_scatStep_miss g f v i' L _ (fun n hn => h n (List.mem_cons_of_mem _ hn)),
      scatStep_miss g f v r a i' (h a List.mem_cons_self)]

/-- An index exactly one update of the list lands at holds the operand's element combined with that update. -/
theorem foldl_scatStep_hit (g : κ → Option ι) (f : α → α → α) (v : κ → α) (i' : ι) (n0 : κ) (h0 : g n0 = some i') :
    ∀ (L : List κ) (r : ι → α), L.Nodup → n0 ∈ L → (∀ n ∈ L, g n = some i' → n = n0) →
      L.foldl (scatStep g f v) r i' = f (r i') (v n0)
  | [], _, _, hm, _ => absurd hm List.not_mem_nil
  | a :: L, r, hnd, hm, hu => by
    rw [List.foldl_cons]
    by_cases ha : a = n0
    · subst ha
      have hnot : ∀ n ∈ L, g n ≠ some i' := fun n hn e => by
        have := hu n (List.mem_cons_of_mem _ hn) e
        exact (List.nodup_cons.1 hnd).1 (this ▸ hn)
      rw [foldl_scatStep_miss g f v i' L _ hnot, scatStep_hit g f v r a i' h0]
    · have hm' : n0 ∈ L := (List.mem_cons.1 hm).resolve_left (fun e => ha e.symm)
      rw [foldl_scatStep_hit g f v i' n0 h0 L _ (List.nodup_cons.1 hnd).2 hm'
          (fun n hn => hu n (List.mem_cons_of_mem _ hn)),
        scatStep_miss g f v r a i' (fun e => ha (hu a List.mem_cons_self e))]

end Fold

section Scatter
variable {s si u : Shape} {α : Type} {w : Nat}

theorem scatter_eq_foldl (d : ScatterDims s si u) (f : α → α → α) (x : s.Idx → α) (idx : IVec si w) (upd : u.Idx → α) :
    Host.scatter d f x idx upd
      = (List.finRange u.numel).foldl
          (scatStep (fun n => d.resultIdx? (u.rowMajor.symm n) idx) f (fun n => upd (u.rowMajor.symm n))) x := by
  unfold Host.scatter
  refine congrArg (fun st => List.foldl st x (List.finRange u.numel)) ?_
  funext r n
  unfold scatStep
  dsimp only
  cases d.resultIdx? (u.rowMajor.symm n) idx <;> rfl

/-- An operand index that no update index lands at keeps its element. -/
theorem scatter_apply_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [scatter_eq_foldl]
  exact foldl_scatStep_miss _ f _ i _ x (fun n _ => h _)

/-- An operand index that exactly one update index `j` lands at holds its element combined with that update. -/
theorem scatter_apply_hit (d : ScatterDims s si u) (f : α → α → α) (x : s.Idx → α) (idx : IVec si w) (upd : u.Idx → α)
    (i : s.Idx) (j : u.Idx) (hj : d.resultIdx? j idx = some i) (hu : ∀ j' : u.Idx, d.resultIdx? j' idx = some i → j' = j) :
    Host.scatter d f x idx upd i = f (x i) (upd j) := by
  rw [scatter_eq_foldl]
  have h0 : (fun n => d.resultIdx? (u.rowMajor.symm n) idx) (u.rowMajor j) = some i := by
    show d.resultIdx? (u.rowMajor.symm (u.rowMajor j)) idx = some i
    rw [Equiv.symm_apply_apply]; exact hj
  have := foldl_scatStep_hit (fun n => d.resultIdx? (u.rowMajor.symm n) idx) f (fun n => upd (u.rowMajor.symm n)) i
    (u.rowMajor j) h0 (List.finRange u.numel) x (List.nodup_finRange _) (List.mem_finRange _)
    (fun n _ e => by
      have := hu _ e
      rw [← this, Equiv.apply_symm_apply])
  rw [this]
  show f (x i) (upd (u.rowMajor.symm (u.rowMajor j))) = _
  rw [Equiv.symm_apply_apply]

end Scatter

/-! ## This program's scatter: the 4096×2048 update combined into the left half of the 4096×4096 operand -/

local notation "scat" => scatter_S4096x4096_S1_S4096x2048_01_n_1_0

theorem scat_start (idx : IVec S1 32) (hidx : ∀ k, idx k = 0#32) (j : S4096x2048.Idx) (a : Fin S4096x4096.rank) :
    ScatterDims.start scat j idx a = 0 := by
  unfold ScatterDims.start
  split
  · rw [hidx]; rfl
  · rfl

/-- Start plus window coordinate of update index (p, q), on each operand axis: p and q. -/
theorem scat_coord (idx : IVec S1 32) (hidx : ∀ k, idx k = 0#32) (p : Fin 4096) (q : Fin 2048) (a : Fin S4096x4096.rank) :
    ScatterDims.start scat (ix2 p q) idx a + ScatterDims.window scat (ix2 p q) a
      = (((ix2 p (⟨q.val, by omega⟩ : Fin 4096) : S4096x4096.Idx) a).val : Int) := by
  rw [scat_start idx hidx]
  match a with
  | ⟨0, h0⟩ =>
    have hw : ScatterDims.window scat (ix2 p q) (⟨0, h0⟩ : Fin S4096x4096.rank) = p.val := rfl
    rw [hw]; show (0 : Int) + (p.val : Int) = (p.val : Int); omega
  | ⟨1, h1⟩ =>
    have hw : ScatterDims.window scat (ix2 p q) (⟨1, h1⟩ : Fin S4096x4096.rank) = q.val := rfl
    rw [hw]; show (0 : Int) + (q.val : Int) = (q.val : Int); omega

/-- Update index (p, q) lands at operand index (p, q): the one start index is 0 and the window is the whole update. -/
theorem scat_resultIdx (idx : IVec S1 32) (hidx : ∀ k, idx k = 0#32) (p : Fin 4096) (q : Fin 2048) :
    ScatterDims.resultIdx? scat (ix2 p q) idx = some (ix2 p (⟨q.val, by omega⟩ : Fin 4096)) := by
  have hco := scat_coord idx hidx p q
  have hc : ∀ a : Fin S4096x4096.rank, 0 ≤ ScatterDims.start scat (ix2 p q) idx a + ScatterDims.window scat (ix2 p q) a
      ∧ ScatterDims.start scat (ix2 p q) idx a + ScatterDims.window scat (ix2 p q) a < S4096x4096.size a := by
    intro a
    rw [hco a]
    exact ⟨Int.natCast_nonneg _, Int.ofNat_lt.2 ((ix2 p (⟨q.val, by omega⟩ : Fin 4096) : S4096x4096.Idx) a).isLt⟩
  unfold ScatterDims.resultIdx?
  rw [dif_pos hc]
  refine congrArg some (funext fun a => Fin.ext ?_)
  show (ScatterDims.start scat (ix2 p q) idx a + ScatterDims.window scat (ix2 p q) a).toNat = _
  rw [hco a, Int.toNat_natCast]

/-- The scatter at row `a` and column `b`: the operand's element, combined with the update's when `b` is one of
    the update's 2048 columns. -/
theorem scat_apply {α : Type} (f : α → α → α) (x : S4096x4096.Idx → α) (idx : IVec S1 32) (hidx : ∀ k, idx k = 0#32)
    (upd : S4096x2048.Idx → α) (a b : Fin 4096) :
    Host.scatter scat f x idx upd (ix2 a b)
      = if h : b.val < 2048 then f (x (ix2 a b)) (upd (ix2 a (⟨b.val, h⟩ : Fin 2048))) else x (ix2 a b) := by
  by_cases h : b.val < 2048
  · rw [dif_pos h]
    refine scatter_apply_hit scat f x idx upd (ix2 a b) (ix2 a (⟨b.val, h⟩ : Fin 2048)) ?_ ?_
    · exact scat_resultIdx idx hidx a ⟨b.val, h⟩
    · intro j' hj'
      obtain ⟨p, q, rfl⟩ : ∃ (p : Fin 4096) (q : Fin 2048), j' = ix2 p q := ⟨j' 0, j' 1, eq_ix2 j'⟩
      rw [scat_resultIdx idx hidx p q] at hj'
      have e := Option.some.inj hj'
      have e0 : p = a := congrFun e 0
      have e1 : (⟨q.val, by omega⟩ : Fin 4096) = b := congrFun e 1
      have e2 : q = (⟨b.val, h⟩ : Fin 2048) := Fin.ext (show q.val = b.val from congrArg Fin.val e1)
      rw [e0, e2]
  · rw [dif_neg h]
    refine scatter_apply_miss scat f x idx upd (ix2 a b) ?_
    intro j' hj'
    obtain ⟨p, q, rfl⟩ : ∃ (p : Fin 4096) (q : Fin 2048), j' = ix2 p q := ⟨j' 0, j' 1, eq_ix2 j'⟩
    rw [scat_resultIdx idx hidx p q] at hj'
    have e := Option.some.inj hj'
    have e1 : (⟨q.val, by omega⟩ : Fin 4096) = b := congrFun e 1
    have e2 : q.val = b.val := congrArg Fin.val e1
    have := q.isLt
    omega

/-! ## The reference's stages, read at an index -/

section Stages

open Cert.ReferenceIdeal.Read

variable (x0 : (⟨S4096x2048, .f32⟩ : BufTy).Contents (Elt Ideal))
  (x1 x2 : (⟨S4096x4096, .f32⟩ : BufTy).Contents (Elt Ideal))
  (x3 x4 : (⟨S1x4096, .f32⟩ : BufTy).Contents (Elt Ideal))
  (x5 : (⟨S4096x4096, .f32⟩ : BufTy).Contents (Elt Ideal))

/-! The index functions of the two products, the transpose and the two bias rows, at a row and a column. -/

theorem lidx11 (a j k : Fin 4096) : lidx_main_v11 (ix2 a j) k = ix2 a k :=
  funext fun d => Fin.ext (by match d with | ⟨0, _⟩ => rfl | ⟨1, _⟩ => rfl)
theorem ridx11 (a j k : Fin 4096) : ridx_main_v11 (ix2 a j) k = ix2 k j :=
  funext fun d => Fin.ext (by match d with | ⟨0, _⟩ => rfl | ⟨1, _⟩ => rfl)
theorem idx12 (a j : Fin 4096) : idx_main_v12 (ix2 a j) = ix2 (0 : Fin 1) j :=
  funext fun d => Fin.ext (by match d with | ⟨0, _⟩ => rfl | ⟨1, _⟩ => rfl)
theorem lidx27 (a j k : Fin 4096) : lidx_main_v27 (ix2 a j) k = ix2 a k :=
  funext fun d => Fin.ext (by match d with | ⟨0, _⟩ => rfl | ⟨1, _⟩ => rfl)
theorem ridx27 (a j k : Fin 4096) : ridx_main_v27 (ix2 a j) k = ix2 k j :=
  funext fun d => Fin.ext (by match d with | ⟨0, _⟩ => rfl | ⟨1, _⟩ => rfl)
theorem idx26 (k j : Fin 4096) : idx_main_v26 (ix2 k j) = ix2 j k :=
  funext fun d => Fin.ext (by match d with | ⟨0, _⟩ => rfl | ⟨1, _⟩ => rfl)
theorem idx28 (a j : Fin 4096) : idx_main_v28 (ix2 a j) = ix2 (0 : Fin 1) j :=
  funext fun d => Fin.ext (by match d with | ⟨0, _⟩ => rfl | ⟨1, _⟩ => rfl)

/-- The masked weights: the entrywise product of the two weight arguments. -/
theorem v0_eq (k j : Fin 4096) : val_main_v0 (F := Ideal) x2 x5 (ix2 k j) = W x2 x5 k j := rfl

/-- The first activation: 1 / (1 + e^{−4·(s − ½)}), spelt with the host's quotient, is ρ(s). -/
theorem v10_eq (i : S4096x4096.Idx) : val_main_v10 (F := Ideal) x1 i = rho (x1 i) := by
  rw [val_main_v10_apply, val_main_v9_apply, val_main_cst_2_apply, val_main_v8_apply, val_main_v7_apply,
    val_main_cst_1_apply, val_main_v6_apply, val_main_v5_apply, val_main_v4_apply, val_main_v3_apply,
    val_main_cst_0_apply, val_main_v2_apply, val_main_v1_apply, val_main_cst_apply]
  simp only [Ideal.hostDivf_def, Ideal.ofBits_def, Ideal.addf_def, Ideal.hostUnary_exp_def, Ideal.hostNegf_def,
    Ideal.negf_def, Ideal.mulf_def, Ideal.subf_def, Ideal.ofBits_one_f32]
  rfl

/-- The first product with its bias. -/
theorem v13_eq (a j : Fin 4096) : val_main_v13 (F := Ideal) x1 x2 x4 x5 (ix2 a j) = hidden x1 x2 x5 x4 a j := by
  rw [val_main_v13_apply, val_main_v11_apply, val_main_v12_apply]
  simp only [Ideal.addf_def, lidx11, ridx11, idx12, v10_eq, v0_eq]
  rfl

/-- The scatter adds Ux into the first 2048 columns: the first product plus the widened Ux. -/
theorem v15_eq (a j : Fin 4096) :
    val_main_v15 (F := Ideal) x0 x1 x2 x4 x5 (ix2 a j) = hidden x1 x2 x5 x4 a j + pad x0 a j := by
  unfold val_main_v15
  rw [scat_apply _ _ _ (fun k => by rw [val_main_v14_apply, val_main_c_apply]) _ a j, v13_eq]
  unfold pad
  by_cases h : j.val < 2048
  · rw [dif_pos h, dif_pos h]; rfl
  · rw [dif_neg h, dif_neg h, add_zero]

/-- The second activation. -/
theorem v25_eq (a j : Fin 4096) : val_main_v25 (F := Ideal) x0 x1 x2 x4 x5 (ix2 a j) = P x0 x1 x2 x5 x4 a j := by
  rw [val_main_v25_apply, val_main_v24_apply, val_main_cst_6_apply, val_main_v23_apply, val_main_v22_apply,
    val_main_cst_5_apply, val_main_v21_apply, val_main_v20_apply, val_main_v19_apply, val_main_v18_apply,
    val_main_cst_4_apply, val_main_v17_apply, val_main_v16_apply, val_main_cst_3_apply, v15_eq]
  simp only [Ideal.hostDivf_def, Ideal.ofBits_def, Ideal.addf_def, Ideal.hostUnary_exp_def, Ideal.hostNegf_def,
    Ideal.negf_def, Ideal.mulf_def, Ideal.subf_def, Ideal.ofBits_one_f32]
  rfl

/-- The transposed masked weights. -/
theorem v26_eq (k j : Fin 4096) : val_main_v26 (F := Ideal) x2 x5 (ix2 k j) = W x2 x5 j k := by
  rw [val_main_v26_apply, idx26, v0_eq]

/-- The second product with its bias: the result. -/
theorem v29_eq (a j : Fin 4096) :
    val_main_v29 (F := Ideal) x0 x1 x2 x3 x4 x5 (ix2 a j) = out x0 x1 x2 x5 x3 x4 a j := by
  rw [val_main_v29_apply, val_main_v27_apply, val_main_v28_apply]
  simp only [Ideal.addf_def, lidx27, ridx27, idx28, v25_eq, v26_eq]
  rfl

/-- The reference's last stage is the specification's result array. -/
theorem ref_eq_spec : val_main_v29 (F := Ideal) x0 x1 x2 x3 x4 x5 = outArr x0 x1 x2 x5 x3 x4 := by
  funext i
  obtain ⟨a, j, rfl⟩ : ∃ a j : Fin 4096, i = ix2 a j := ⟨i 0, i 1, eq_ix2 i⟩
  rw [v29_eq]
  rfl

end Stages

/-! ## The reference's run -/

/-- The reference terminates without a fault and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Every weakly fair execution of the reference from a memory `m` with zero counters terminates with its result
    buffer at the specification's array of `m`'s six argument buffers, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
        = outArr (m ((c.tc : Thread nD τ).loc main_arg0)) (m ((c.tc : Thread nD τ).loc main_arg1))
            (m ((c.tc : Thread nD τ).loc main_arg2)) (m ((c.tc : Thread nD τ).loc main_arg5))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run Cert.ReferenceIdeal.defs _ _).mono
    (fun _ h c => ⟨(h c).1.trans ((Read.val_main_v29_eq _ _ _ _ _ _).trans (ref_eq_spec _ _ _ _ _ _)), (h c).2⟩)
    (Cert.ReferenceIdeal.Value.run (F := Ideal) m ρ)

end Cert.Bridge.Ref

end
-- ==== Proof.KernelIdeal.Pieces.lean ====
/-
  What each situation's stores leave behind, as values.

  Along the contracted grid axis a body meets one of three situations: k = 0 (the accumulator is cleared and then
  receives this point's partial product), k = 1, 2 (it receives the partial product on top of what it held) and
  k = 3 (the same, after which the output block is stored from the finished accumulator). In every situation each
  buffer the body writes ends under ONE store of the whole block, issued last; so what the buffer holds afterwards
  is that store's value. A load of a whole buffer reads its contents, and a load that follows a whole-block store
  into the same buffer reads the value stored. Writing step(a, b, acc) for "acc plus the partial product of the
  blocks a and b" and finish for the last step's arithmetic:

    accumulator after k = 0:        step(a, b, 0-block)
    accumulator after k = 1, 2, 3:  step(a, b, acc)
    output block at k = 3:          finish(step(a, b, acc), …)

  — the output block is computed from the accumulator AFTER this point's own store into it, not from what the point
  found there. The same holds for both products; the first one's finish takes the bias row and a third block, the
  second one's the bias row only.
-/
import proofs.«153961_j40888088658618_1_alg».proof.Proof.KernelIdeal.R0Frame
import proofs.«153961_j40888088658618_1_alg».proof.Proof.KernelIdeal.R1Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 block, as the constant function. -/
theorem zero_offsets : (![0, 0] : Fin 2 → Nat) = fun _ => 0 := funext fun a => by fin_cases a <;> rfl

/-! ## The first product's region -/

/-- First product, k = 1, 2: the accumulator ends at what it held plus this point's partial product. -/
theorem sout0_B_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : ¬cond0_1 i)
    (x0 : Vec F S1024x1024 .f32) (x1 : Vec F S1024x1024 .f32) (x2 : Vec F S1024x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero zero_offsets]
  simp only [View.readAt_eq_ld, harg3.read_unread, harg4.read_unread, harg8.read_unread, View.ld_unit_zero (S := S1024x1024) zero_offsets]

/-- First product, k = 0: the accumulator ends at the zero block plus this point's partial product (the load that
    follows the clearing store reads the zero block). -/
theorem sout0_A_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : cond0_0 i) (hc1 : ¬cond0_1 i)
    (x0 : Vec F S1024x1024 .f32) (x1 : Vec F S1024x1024 .f32) (x2 : Vec F S1024x1024 .f32) (x3 : Vec F S1x1024 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x1024) zero_offsets]

/-- First product, k = 3: the accumulator ends at what it held plus the last partial product. -/
theorem sout0_C_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero zero_offsets]
  simp only [View.readAt_eq_ld, harg3.read_unread, harg4.read_unread, harg8.read_unread, View.ld_unit_zero (S := S1024x1024) zero_offsets]

/-- First product, k = 3: the output block is the last step's arithmetic of the FINISHED accumulator (read back after
    this point's own store into it), the bias row and the third block. -/
theorem out0_C_4_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (hc0 : ¬cond0_0 i) (hc1 : cond0_1 i)
    (x0 : Vec F S1024x1024 .f32) (x1 : Vec F S1024x1024 .f32) (x2 : Vec F S1024x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 xs0) x3 x2 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero zero_offsets, View.readCov_unit_zero (S := S1024x1024) _ zero_offsets]
  simp only [View.readAt_eq_ld, harg3.read_unread, harg4.read_unread, harg5.read_unread, harg6.read_unread, harg8.read_unread,
    View.ld_unit_zero (S := S1024x1024) zero_offsets, View.ld_unit_zero (S := S1x1024) zero_offsets]

/-! ## The second product's region -/

/-- Second product, k = 1, 2: the accumulator ends at what it held plus this point's partial product. -/
theorem sout1_B_0_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .f32) (x2 : Vec F S1x1024 .f32) (xs0 : Vec F S1024x1024 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  rw [View.canon_unit_zero zero_offsets]
  simp only [View.readAt_eq_ld, harg3.read_unread, harg4.read_unread, harg7.read_unread, View.ld_unit_zero (S := S1024x1024) zero_offsets]

/-- Second product, k = 0: the accumulator ends at the zero block plus this point's partial product. -/
theorem sout1_A_0_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .f32) (x2 : Vec F S1x1024 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x1024) zero_offsets]

/-- Second product, k = 3: the accumulator ends at what it held plus the last partial product. -/
theorem sout1_C_0_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero zero_offsets]
  simp only [View.readAt_eq_ld, harg3.read_unread, harg4.read_unread, harg7.read_unread, View.ld_unit_zero (S := S1024x1024) zero_offsets]

/-- Second product, k = 3: the output block is the FINISHED accumulator (read back after this point's own store into it)
    plus the bias row. -/
theorem out1_C_3_eq (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .f32) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero zero_offsets, View.readCov_unit_zero (S := S1024x1024) _ zero_offsets]
  simp only [View.readAt_eq_ld, harg3.read_unread, harg4.read_unread, harg5.read_unread, harg7.read_unread,
    View.ld_unit_zero (S := S1024x1024) zero_offsets, View.ld_unit_zero (S := S1x1024) zero_offsets]

end Cert.KernelIdeal.Fr

end
-- ==== Proof.Payloads.lean ====
/-
  The arithmetic of every value the two kernel bodies store, read at a row `p` and a column `q` of a
  1024×1024 block, on the extended reals.

  With ρ(x) = σ(4·(x − ½)), σ(y) = 1/(1 + e^{−y}):

    • the block that initialises an accumulator is 0 at every entry;
    • first body, accumulation:   acc[p,q] + ∑ₖ ρ(s[p,k]) · w[k,q]
        (k runs over the 1024 columns of the s-block, which are the rows of the w-block);
    • first body, last step:      ρ((acc[p,q] + b[0,q]) + u[p,q]);
    • second body, accumulation:  acc[p,q] + ∑ₖ a[p,k] · w[q,k]
        (both operands are contracted along their COLUMN index: a product with the transpose);
    • second body, last step:     acc[p,q] + b[0,q].

  On the extended reals a change of float format is the identity and a reshape to the same shape is the
  identity, so neither leaves a trace; a one-row array broadcast over 1024 rows reads its one row.

  Last, a sum of 4096 terms equals its four consecutive runs of 1024 accumulated from 0, left to right.
  Addition on the extended reals is commutative and associative at the infinities too, so this needs no
  finiteness of the terms.
-/
import proofs.«153961_j40888088658618_1_alg».proof.Proof.Gen.KernelIdeal.Skeleton
import proofs.«153961_j40888088658618_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Bridge.Pay

open Cert.KernelIdeal Cert.KernelIdeal.Gen Idealize.ShloMosaic Idealize.ShloMosaic.ValueIdx

/-! ## Regrouping a sum of 4096 terms into four consecutive runs of 1024 -/

/-- A sum over `n + n + n + n` indices is the four sums over its consecutive runs of `n`, accumulated from `0`. -/
theorem sum_four_runs_aux {M : Type*} [AddCommMonoid M] (n : ℕ) (f : Fin (n + n + n + n) → M) :
    ∑ k, f k = (((0 + ∑ a : Fin n, f ⟨a.val, by omega⟩) + ∑ a : Fin n, f ⟨n + a.val, by omega⟩)
        + ∑ a : Fin n, f ⟨n + n + a.val, by omega⟩) + ∑ a : Fin n, f ⟨n + n + n + a.val, by omega⟩ := by
  rw [Fin.sum_univ_add, Fin.sum_univ_add, Fin.sum_univ_add, zero_add]
  rfl

/-- A sum of 4096 terms is its four consecutive runs of 1024, accumulated from `0`, left to right. -/
theorem sum_four_runs (f : Fin 4096 → EReal) :
    ∑ k : Fin 4096, f k
      = (((0 + ∑ a : Fin 1024, f ⟨a.val, by omega⟩) + ∑ a : Fin 1024, f ⟨1024 + a.val, by omega⟩)
          + ∑ a : Fin 1024, f ⟨2048 + a.val, by omega⟩) + ∑ a : Fin 1024, f ⟨3072 + a.val, by omega⟩ :=
  sum_four_runs_aux 1024 f

/-! ## The zero word -/

/-- The first body's initial accumulator block is `0` at every entry. -/
theorem k0_pay1_apply (p q : Fin 1024) : k0_pay1 (F := Ideal) (ix2 p q) = 0 := by
  unfold k0_pay1
  rw [shapeCast_self]
  exact Ideal.ofBits_zero_f32

/-- The second body's initial accumulator block is `0` at every entry. -/
theorem k1_pay1_apply (p q : Fin 1024) : k1_pay1 (F := Ideal) (ix2 p q) = 0 := by
  unfold k1_pay1
  rw [shapeCast_self]
  exact Ideal.ofBits_zero_f32

/-! ## The last steps: the bias row added, and for the first body the padded input added and ρ applied -/

/-- Second body, last step: the accumulator plus the bias row's entry at column `q`. -/
theorem k1_pay3_apply (v17 : Vec Ideal S1024x1024 .f32) (v18 : Vec Ideal S1x1024 .f32) (p q : Fin 1024) :
    k1_pay3 (F := Ideal) v17 v18 (ix2 p q) = v17 (ix2 p q) + v18 (ix2 (0 : Fin 1) q) := by
  unfold k1_pay3
  exact congrArg (v17 (ix2 p q) + ·) (broadcastTo_1b_ab_apply v18 _ p q)

/-- First body, last step: ρ of the accumulator plus the bias row's entry at column `q` plus the third block's entry. -/
theorem k0_pay3_apply (v22 : Vec Ideal S1024x1024 .f32) (v23 : Vec Ideal S1x1024 .f32) (v26 : Vec Ideal S1024x1024 .f32)
    (p q : Fin 1024) :
    k0_pay3 (F := Ideal) v22 v23 v26 (ix2 p q)
      = rho ((v22 (ix2 p q) + v23 (ix2 (0 : Fin 1) q)) + v26 (ix2 p q)) := by
  unfold k0_pay3
  have hb := broadcastTo_1b_ab_apply v23 broadcasts_S1x1024_S1024x1024 p q
  have hs := shapeCast_self v26 shapeCasts_S1024x1024_S1024x1024
  show rho ((v22 (ix2 p q) + broadcastTo S1024x1024 v23 _ (ix2 p q)) + shapeCast S1024x1024 v26 _ (ix2 p q)) = _
  rw [hb, hs]

/-! ## The two products read at an index

The first product contracts the left operand's column index against the right operand's row index; the second
contracts the column index of both (a product with the transpose). Each is read off the operation's dimension
numbers: the contraction shape has one axis of extent 1024, and the operands' indices at an output index
`(p, q)` and contraction position `k` are `(p, k)` and, respectively, `(k, q)` or `(q, k)`. -/

/-- First product, left operand: the row is the output's row. -/
theorem nn_lhs_row (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- First product, right operand: the column is the output's column. -/
theorem nn_rhs_col (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- Second product, left operand: the row is the output's row. -/
theorem nt_lhs_row (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- Second product, right operand: the ROW is the output's column. -/
theorem nt_rhs_row (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The first product into the zero accumulator, at `(p, q)`: row `p` of the left operand against column `q` of the right. -/
theorem matmul_nn_apply (A B : FVec Ideal S1024x1024 .bf16) (p q : Fin 1024) :
    FloatOps.matmul dot_S1024x1024_S1024x1024_S1024x1024_1_0_0_1_n_n none A B
        (constant (F := Ideal) S1024x1024 .f32 0x00000000#32) (ix2 p q)
      = ∑ k : Fin 1024, A (ix2 p k) * B (ix2 k q) := by
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact nn_lhs_row _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (dot_S1024x1024_S1024x1024_S1024x1024_1_0_0_1_n_n.rhsIdx_val_of_single rfl _ _).trans hk
      | ⟨1, _⟩ => exact nn_rhs_col _ _)
  rw [el, er]

/-- The second product into the zero accumulator, at `(p, q)`: row `p` of the left operand against ROW `q` of the right. -/
theorem matmul_nt_apply (A B : FVec Ideal S1024x1024 .bf16) (p q : Fin 1024) :
    FloatOps.matmul dot_S1024x1024_S1024x1024_S1024x1024_1_1_0_0_n_n none A B
        (constant (F := Ideal) S1024x1024 .f32 0x00000000#32) (ix2 p q)
      = ∑ k : Fin 1024, A (ix2 p k) * B (ix2 q k) := by
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact nt_lhs_row _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact nt_rhs_row _ _
      | ⟨1, _⟩ => exact (dot_S1024x1024_S1024x1024_S1024x1024_1_1_0_0_n_n.rhsIdx_val_of_single rfl _ _).trans hk)
  rw [el, er]

/-! ## The accumulating stores -/

/-- First kernel's accumulation: the scratch block plus row `p` of ρ(s-block) against column `q` of the weight block. -/
theorem k0_pay2_apply (v3 v10 v13 : Vec Ideal S1024x1024 .f32) (p q : Fin 1024) :
    k0_pay2 (F := Ideal) v3 v10 v13 (ix2 p q)
      = v13 (ix2 p q) + ∑ k : Fin 1024, rho (v3 (ix2 p k)) * v10 (ix2 k q) := by
  unfold k0_pay2
  rw [shapeCast_self]
  refine (congrArg (v13 (ix2 p q) + ·) (matmul_nn_apply _ _ p q)).trans ?_
  rw [shapeCast_self]
  rfl

/-- Second kernel's accumulation: the scratch block plus row `p` of the activations against ROW `q` of the weight block. -/
theorem k1_pay2_apply (v3 : Vec Ideal S1024x1024 .bf16) (v5 v8 : Vec Ideal S1024x1024 .f32) (p q : Fin 1024) :
    k1_pay2 (F := Ideal) v3 v5 v8 (ix2 p q)
      = v8 (ix2 p q) + ∑ k : Fin 1024, v3 (ix2 p k) * v5 (ix2 q k) := by
  unfold k1_pay2
  rw [shapeCast_self]
  refine (congrArg (v8 (ix2 p q) + ·) (matmul_nt_apply _ _ p q)).trans ?_
  rw [shapeCast_self, shapeCast_self]
  rfl

end Cert.Bridge.Pay

end
-- ==== Proof.Value.Accum.lean ====
/-
  What the accumulators hold, point by point, as sums.

  Along the contracted axis a block's accumulator starts (k = 0) at 0 + (this point's partial product) and then receives
  one partial product per point; after the fourth point (k = 3) it holds
      (((0 + S₀) + S₁) + S₂) + S₃ ,
  Sₖ the sum over the 1024 inner positions of the k-th pair of input blocks. At k = 3 the first product's output block is
  ρ((that sum + the bias row) + the padded-input block); the second product's is that sum + its bias row.
  Everything here is at an arbitrary contents of the core's buffers at the region's entry.
-/
import proofs.«153961_j40888088658618_1_alg».proof.Proof.KernelIdeal.Pieces
import proofs.«153961_j40888088658618_1_alg».proof.Proof.Payloads

noncomputable section

namespace Cert.Bridge.Acc

open Cert.KernelIdeal Cert.KernelIdeal.Gen Cert.KernelIdeal.Fr Cert.Bridge Cert.Bridge.Pay
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-! ## The first product -/

/-- The input blocks of the first product at point u, typed as the body's vectors. -/
abbrev a0 (u : Fin cfg0.N) : Vec Ideal S1024x1024 .f32 := iblk0 V c 0 u
abbrev b0 (u : Fin cfg0.N) : Vec Ideal S1024x1024 .f32 := iblk0 V c 1 u
abbrev u0 (u : Fin cfg0.N) : Vec Ideal S1024x1024 .f32 := iblk0 V c 2 u
abbrev r0 (u : Fin cfg0.N) : Vec Ideal S1x1024 .f32 := iblk0 V c 3 u

/-- Point u's partial product at entry (p, q) of its output block. -/
def part0 (u : Fin cfg0.N) (p q : Fin 1024) : EReal :=
  ∑ k : Fin 1024, rho (a0 V c u (ix2 p k)) * b0 V c u (ix2 k q)

/-- The accumulator after point n, typed as the body's vector. -/
abbrev acc0 (n : ℕ) (h : n < cfg0.N) : Vec Ideal S1024x1024 .f32 := (outsAt0 V c n h).2

theorem acc0_base (t : Fin cfg0.N) (h0 : t.val % 4 = 0) (p q : Fin 1024) :
    acc0 V c t.val t.isLt (ix2 p q) = 0 + part0 V c t p q := by
  have h1 : ¬t.val % 4 = 3 := by omega
  unfold acc0
  rw [outsAt0_A V c t h0 h1]
  dsimp only
  rw [sout0_A_0_eq]
  exact (k0_pay2_apply _ _ _ p q).trans (by rw [k0_pay1_apply]; rfl)

theorem acc0_step (t : Fin cfg0.N) (h0 : ¬t.val % 4 = 0) (p q : Fin 1024) :
    acc0 V c t.val t.isLt (ix2 p q)
      = acc0 V c (t.val - 1) (Nat.lt_of_le_of_lt (Nat.sub_le _ _) t.isLt) (ix2 p q) + part0 V c t p q := by
  unfold acc0
  by_cases h1 : t.val % 4 = 3
  · rw [outsAt0_C V c t h0 h1]
    dsimp only
    rw [sout0_C_0_eq]
    exact (k0_pay2_apply _ _ _ p q)
  · rw [outsAt0_B V c t h0 h1]
    dsimp only
    rw [sout0_B_0_eq]
    exact (k0_pay2_apply _ _ _ p q)

/-- One point later: what the accumulator held, plus the new point's partial product. -/
theorem acc0_succ (n : ℕ) (hn : n + 1 < cfg0.N) (h0 : ¬(n + 1) % 4 = 0) (p q : Fin 1024) :
    acc0 V c (n + 1) hn (ix2 p q) = acc0 V c n (Nat.lt_of_succ_lt hn) (ix2 p q) + part0 V c ⟨n + 1, hn⟩ p q :=
  acc0_step V c ⟨n + 1, hn⟩ h0 p q

/-- After the fourth point of a block (the block starts at position n, n a multiple of 4) the accumulator holds the four
    partial products, added in point order from 0. -/
theorem acc0_full (n : ℕ) (hn : n + 3 < cfg0.N) (h0 : n % 4 = 0) (p q : Fin 1024) :
    acc0 V c (n + 3) hn (ix2 p q)
      = (((0 + part0 V c ⟨n, by omega⟩ p q) + part0 V c ⟨n + 1, by omega⟩ p q)
          + part0 V c ⟨n + 2, by omega⟩ p q) + part0 V c ⟨n + 3, hn⟩ p q := by
  rw [acc0_succ V c (n + 2) hn (by omega) p q, acc0_succ V c (n + 1) (by omega) (by omega) p q,
    acc0_succ V c n (by omega) (by omega) p q, acc0_base V c ⟨n, by omega⟩ h0 p q]

/-- At k = 3 the output block holds ρ((the finished sum + the bias row) + the padded-input block). -/
theorem out0_at (t : Fin cfg0.N) (h3 : t.val % 4 = 3) (p q : Fin 1024) :
    ((outsAt0 V c t.val t.isLt).1 : Vec Ideal S1024x1024 .bf16) (ix2 p q)
      = rho ((acc0 V c t.val t.isLt (ix2 p q) + r0 V c t (ix2 (0 : Fin 1) q)) + u0 V c t (ix2 p q)) := by
  have h0 : ¬t.val % 4 = 0 := by omega
  unfold acc0
  rw [outsAt0_C V c t h0 h3]
  dsimp only
  rw [out0_C_4_eq, sout0_C_0_eq]
  exact k0_pay3_apply _ _ _ p q

/-! ## The second product -/

abbrev a1 (u : Fin cfg1.N) : Vec Ideal S1024x1024 .bf16 := iblk1 V c 0 u
abbrev b1 (u : Fin cfg1.N) : Vec Ideal S1024x1024 .f32 := iblk1 V c 1 u
abbrev r1 (u : Fin cfg1.N) : Vec Ideal S1x1024 .f32 := iblk1 V c 2 u

/-- Point u's partial product at entry (p, q): row p of the left block against ROW q of the right block. -/
def part1 (u : Fin cfg1.N) (p q : Fin 1024) : EReal :=
  ∑ k : Fin 1024, a1 V c u (ix2 p k) * b1 V c u (ix2 q k)

abbrev acc1 (n : ℕ) (h : n < cfg1.N) : Vec Ideal S1024x1024 .f32 := (outsAt1 V c n h).2

theorem acc1_base (t : Fin cfg1.N) (h0 : t.val % 4 = 0) (p q : Fin 1024) :
    acc1 V c t.val t.isLt (ix2 p q) = 0 + part1 V c t p q := by
  have h1 : ¬t.val % 4 = 3 := by omega
  unfold acc1
  rw [outsAt1_A V c t h0 h1]
  dsimp only
  rw [sout1_A_0_eq]
  exact (k1_pay2_apply _ _ _ p q).trans (by rw [k1_pay1_apply]; rfl)

theorem acc1_step (t : Fin cfg1.N) (h0 : ¬t.val % 4 = 0) (p q : Fin 1024) :
    acc1 V c t.val t.isLt (ix2 p q)
      = acc1 V c (t.val - 1) (Nat.lt_of_le_of_lt (Nat.sub_le _ _) t.isLt) (ix2 p q) + part1 V c t p q := by
  unfold acc1
  by_cases h1 : t.val % 4 = 3
  · rw [outsAt1_C V c t h0 h1]
    dsimp only
    rw [sout1_C_0_eq]
    exact (k1_pay2_apply _ _ _ p q)
  · rw [outsAt1_B V c t h0 h1]
    dsimp only
    rw [sout1_B_0_eq]
    exact (k1_pay2_apply _ _ _ p q)

/-- One point later: what the accumulator held, plus the new point's partial product. -/
theorem acc1_succ (n : ℕ) (hn : n + 1 < cfg1.N) (h0 : ¬(n + 1) % 4 = 0) (p q : Fin 1024) :
    acc1 V c (n + 1) hn (ix2 p q) = acc1 V c n (Nat.lt_of_succ_lt hn) (ix2 p q) + part1 V c ⟨n + 1, hn⟩ p q :=
  acc1_step V c ⟨n + 1, hn⟩ h0 p q

/-- After the fourth point of a block (the block starts at position n, n a multiple of 4) the accumulator holds the four
    partial products, added in point order from 0. -/
theorem acc1_full (n : ℕ) (hn : n + 3 < cfg1.N) (h0 : n % 4 = 0) (p q : Fin 1024) :
    acc1 V c (n + 3) hn (ix2 p q)
      = (((0 + part1 V c ⟨n, by omega⟩ p q) + part1 V c ⟨n + 1, by omega⟩ p q)
          + part1 V c ⟨n + 2, by omega⟩ p q) + part1 V c ⟨n + 3, hn⟩ p q := by
  rw [acc1_succ V c (n + 2) hn (by omega) p q, acc1_succ V c (n + 1) (by omega) (by omega) p q,
    acc1_succ V c n (by omega) (by omega) p q, acc1_base V c ⟨n, by omega⟩ h0 p q]

/-- At k = 3 the output block holds the finished sum plus the bias row. -/
theorem out1_at (t : Fin cfg1.N) (h3 : t.val % 4 = 3) (p q : Fin 1024) :
    ((outsAt1 V c t.val t.isLt).1 : Vec Ideal S1024x1024 .f32) (ix2 p q)
      = acc1 V c t.val t.isLt (ix2 p q) + r1 V c t (ix2 (0 : Fin 1) q) := by
  have h0 : ¬t.val % 4 = 0 := by omega
  unfold acc1
  rw [outsAt1_C V c t h0 h3]
  dsimp only
  rw [out1_C_3_eq, sout1_C_0_eq]
  exact k1_pay3_apply _ _ p q

end Cert.Bridge.Acc

end
-- ==== Proof.Value.Blocks.lean ====
/-
  The index arithmetic of the kernel side.

  Both products run on a 4 × 4 × 4 grid; point t has coordinates (i, j, k) = (t / 16, (t / 4) mod 4, t mod 4), and
  every window moves 1024 × 1024 blocks (the bias rows 1 × 1024 blocks) of a 4096 × 4096 array (a 1 × 4096 row):
  the block with index (b₀, b₁) holds the array's entries (1024·b₀ + p, 1024·b₁ + q). This module says which block
  index each window has at a point, reads each window's block at (p, q) as the array's entry there, shows that the
  output blocks written back at the points with k = 3 cover the output array, and reads the arrays the host
  operations before the first product leave: the entrywise product of the two weight arrays, and Ux widened by
  2048 zero columns.
-/
import proofs.«153961_j40888088658618_1_alg».proof.Proof.KernelIdeal.R0Base
import proofs.«153961_j40888088658618_1_alg».proof.Proof.KernelIdeal.R1Base
import proofs.«153961_j40888088658618_1_alg».proof.Proof.Spec
import Idealize.ShloMosaic.Lib.Pipeline.Value
import Idealize.ShloMosaic.Lib.ValueIdx
import Idealize.ShloMosaic.Lib.StableHlo.Run

set_option maxRecDepth 16384

noncomputable section

namespace Cert.Bridge.Blk

open Cert.KernelIdeal Cert.KernelIdeal.Gen Cert.KernelIdeal.Fr
open Idealize.ShloMosaic Idealize.ShloMosaic.TcCoe Idealize.SL.Sem Idealize.ShloMosaic.ValueIdx

variable {F : FTy → Type} [FloatOps F]

/-! ## The grids' sizes -/

theorem lt64_0 (t : Fin cfg0.N) : t.val < 64 := Nat.lt_of_lt_of_eq t.isLt N_0
theorem lt64_1 (t : Fin cfg1.N) : t.val < 64 := Nat.lt_of_lt_of_eq t.isLt N_1

/-! ## Each window's block index at a point, decided once over the grid -/

/-- s, first product: block (i, k). -/
theorem idx0_0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
/-- W, first product: block (k, j). -/
theorem idx0_1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
/-- The widened Ux: block (i, j). -/
theorem idx0_2 : ∀ t : Fin cfg0.N, win0_2.index t 0 = t.val / 16 ∧ win0_2.index t 1 = t.val / 4 % 4 :=
  (by decide +kernel : ∀ t : Fin grid0.N, win0_2.index t 0 = t.val / 16 ∧ win0_2.index t 1 = t.val / 4 % 4)
/-- b_odd: block (0, j). -/
theorem idx0_3 : ∀ t : Fin cfg0.N, win0_3.index t 0 = 0 ∧ win0_3.index t 1 = t.val / 4 % 4 :=
  (by decide +kernel : ∀ t : Fin grid0.N, win0_3.index t 0 = 0 ∧ win0_3.index t 1 = t.val / 4 % 4)
/-- The first product's output: block (i, j). -/
theorem idx0_4 : ∀ t : Fin cfg0.N, win0_4.index t 0 = t.val / 16 ∧ win0_4.index t 1 = t.val / 4 % 4 :=
  (by decide +kernel : ∀ t : Fin grid0.N, win0_4.index t 0 = t.val / 16 ∧ win0_4.index t 1 = t.val / 4 % 4)
/-- P, second product: block (i, k). -/
theorem idx1_0 : ∀ t : Fin cfg1.N, win1_0.index t 0 = t.val / 16 ∧ win1_0.index t 1 = t.val % 4 :=
  (by decide +kernel : ∀ t : Fin grid1.N, win1_0.index t 0 = t.val / 16 ∧ win1_0.index t 1 = t.val % 4)
/-- W, second product: block (j, k) — the transpose is in the index map. -/
theorem idx1_1 : ∀ t : Fin cfg1.N, win1_1.index t 0 = t.val / 4 % 4 ∧ win1_1.index t 1 = t.val % 4 :=
  (by decide +kernel : ∀ t : Fin grid1.N, win1_1.index t 0 = t.val / 4 % 4 ∧ win1_1.index t 1 = t.val % 4)
/-- b_even: block (0, j). -/
theorem idx1_2 : ∀ t : Fin cfg1.N, win1_2.index t 0 = 0 ∧ win1_2.index t 1 = t.val / 4 % 4 :=
  (by decide +kernel : ∀ t : Fin grid1.N, win1_2.index t 0 = 0 ∧ win1_2.index t 1 = t.val / 4 % 4)
/-- The second product's output: block (i, j). -/
theorem idx1_3 : ∀ t : Fin cfg1.N, win1_3.index t 0 = t.val / 16 ∧ win1_3.index t 1 = t.val / 4 % 4 :=
  (by decide +kernel : ∀ t : Fin grid1.N, win1_3.index t 0 = t.val / 16 ∧ win1_3.index t 1 = t.val / 4 % 4)

/-! ## The input windows' blocks, read at a row and a column -/

section Reads
variable (V : (c : Dev nD) → (b : Ref sig .tc) → Buf (Elt F) ((c : Thread nD τ).loc b))

/-- First product, s: entry (p, q) of block (i, k). -/
theorem iblk0_0_at (c : Dev nD) (t : Fin cfg0.N) (p q : Fin 1024) :
    iblk0 V c 0 t (ix2 p q)
      = V c main_arg1 (ix2 (⟨1024 * (t.val / 16) + p.val, by have := lt64_0 t; omega⟩ : Fin 4096)
          (⟨1024 * (t.val % 4) + q.val, by have := lt64_0 t; omega⟩ : Fin 4096)) := by
  have hi := idx0_0 t
  unfold iblk0
  rw [View.read_apply]
  show V c main_arg1 _ = V c main_arg1 _
  congr 1
  funext a
  apply Fin.ext
  match a with
  | ⟨0, _⟩ => show win0_0.index t 0 * 1024 + 1 * p.val = 1024 * (t.val / 16) + p.val; rw [hi.1]; omega
  | ⟨1, _⟩ => show win0_0.index t 1 * 1024 + 1 * q.val = 1024 * (t.val % 4) + q.val; rw [hi.2]; omega

/-- First product, W: entry (p, q) of block (k, j). -/
theorem iblk0_1_at (c : Dev nD) (t : Fin cfg0.N) (p q : Fin 1024) :
    iblk0 V c 1 t (ix2 p q)
      = V c main_v0 (ix2 (⟨1024 * (t.val % 4) + p.val, by have := lt64_0 t; omega⟩ : Fin 4096)
          (⟨1024 * (t.val / 4 % 4) + q.val, by have := lt64_0 t; omega⟩ : Fin 4096)) := by
  have hi := idx0_1 t
  unfold iblk0
  rw [View.read_apply]
  show V c main_v0 _ = V c main_v0 _
  congr 1
  funext a
  apply Fin.ext
  match a with
  | ⟨0, _⟩ => show win0_1.index t 0 * 1024 + 1 * p.val = 1024 * (t.val % 4) + p.val; rw [hi.1]; omega
  | ⟨1, _⟩ => show win0_1.index t 1 * 1024 + 1 * q.val = 1024 * (t.val / 4 % 4) + q.val; rw [hi.2]; omega

/-- First product, the widened Ux: entry (p, q) of block (i, j). -/
theorem iblk0_2_at (c : Dev nD) (t : Fin cfg0.N) (p q : Fin 1024) :
    iblk0 V c 2 t (ix2 p q)
      = V c main_v2 (ix2 (⟨1024 * (t.val / 16) + p.val, by have := lt64_0 t; omega⟩ : Fin 4096)
          (⟨1024 * (t.val / 4 % 4) + q.val, by have := lt64_0 t; omega⟩ : Fin 4096)) := by
  have hi := idx0_2 t
  unfold iblk0
  rw [View.read_apply]
  show V c main_v2 _ = V c main_v2 _
  congr 1
  funext a
  apply Fin.ext
  match a with
  | ⟨0, _⟩ => show win0_2.index t 0 * 1024 + 1 * p.val = 1024 * (t.val / 16) + p.val; rw [hi.1]; omega
  | ⟨1, _⟩ => show win0_2.index t 1 * 1024 + 1 * q.val = 1024 * (t.val / 4 % 4) + q.val; rw [hi.2]; omega

/-- First product, b_odd: entry q of block j of the row. -/
theorem iblk0_3_at (c : Dev nD) (t : Fin cfg0.N) (q : Fin 1024) :
    iblk0 V c 3 t (ix2 (0 : Fin 1) q)
      = V c main_arg4 (ix2 (0 : Fin 1) (⟨1024 * (t.val / 4 % 4) + q.val, by have := lt64_0 t; omega⟩ : Fin 4096)) := by
  have hi := idx0_3 t
  unfold iblk0
  rw [View.read_apply]
  show V c main_arg4 _ = V c main_arg4 _
  congr 1
  funext a
  apply Fin.ext
  match a with
  | ⟨0, _⟩ => show win0_3.index t 0 * 1 + 1 * 0 = 0; rw [hi.1]
  | ⟨1, _⟩ => show win0_3.index t 1 * 1024 + 1 * q.val = 1024 * (t.val / 4 % 4) + q.val; rw [hi.2]; omega

/-- Second product, P: entry (p, q) of block (i, k). -/
theorem iblk1_0_at (c : Dev nD) (t : Fin cfg1.N) (p q : Fin 1024) :
    iblk1 V c 0 t (ix2 p q)
      = V c main_v3 (ix2 (⟨1024 * (t.val / 16) + p.val, by have := lt64_1 t; omega⟩ : Fin 4096)
          (⟨1024 * (t.val % 4) + q.val, by have := lt64_1 t; omega⟩ : Fin 4096)) := by
  have hi := idx1_0 t
  unfold iblk1
  rw [View.read_apply]
  show V c main_v3 _ = V c main_v3 _
  congr 1
  funext a
  apply Fin.ext
  match a with
  | ⟨0, _⟩ => show win1_0.index t 0 * 1024 + 1 * p.val = 1024 * (t.val / 16) + p.val; rw [hi.1]; omega
  | ⟨1, _⟩ => show win1_0.index t 1 * 1024 + 1 * q.val = 1024 * (t.val % 4) + q.val; rw [hi.2]; omega

/-- Second product, W: entry (p, q) of block (j, k). -/
theorem iblk1_1_at (c : Dev nD) (t : Fin cfg1.N) (p q : Fin 1024) :
    iblk1 V c 1 t (ix2 p q)
      = V c main_v0 (ix2 (⟨1024 * (t.val / 4 % 4) + p.val, by have := lt64_1 t; omega⟩ : Fin 4096)
          (⟨1024 * (t.val % 4) + q.val, by have := lt64_1 t; omega⟩ : Fin 4096)) := by
  have hi := idx1_1 t
  unfold iblk1
  rw [View.read_apply]
  show V c main_v0 _ = V c main_v0 _
  congr 1
  funext a
  apply Fin.ext
  match a with
  | ⟨0, _⟩ => show win1_1.index t 0 * 1024 + 1 * p.val = 1024 * (t.val / 4 % 4) + p.val; rw [hi.1]; omega
  | ⟨1, _⟩ => show win1_1.index t 1 * 1024 + 1 * q.val = 1024 * (t.val % 4) + q.val; rw [hi.2]; omega

/-- Second product, b_even: entry q of block j of the row. -/
theorem iblk1_2_at (c : Dev nD) (t : Fin cfg1.N) (q : Fin 1024) :
    iblk1 V c 2 t (ix2 (0 : Fin 1) q)
      = V c main_arg3 (ix2 (0 : Fin 1) (⟨1024 * (t.val / 4 % 4) + q.val, by have := lt64_1 t; omega⟩ : Fin 4096)) := by
  have hi := idx1_2 t
  unfold iblk1
  rw [View.read_apply]
  show V c main_arg3 _ = V c main_arg3 _
  congr 1
  funext a
  apply Fin.ext
  match a with
  | ⟨0, _⟩ => show win1_2.index t 0 * 1 + 1 * 0 = 0; rw [hi.1]
  | ⟨1, _⟩ => show win1_2.index t 1 * 1024 + 1 * q.val = 1024 * (t.val / 4 % 4) + q.val; rw [hi.2]; omega

end Reads

/-! ## The output windows: a block of a whole-array function, and the cover -/

/-- The first product's output window: entry (p, q) of block (i, j) of any whole-array function. -/
theorem blk0_4_read (G : (⟨S4096x4096, .bf16⟩ : BufTy).Contents (Elt F)) (t : Fin cfg0.N) (_ht : t.val % 4 = 3) (p q : Fin 1024) :
    ((cfg0.win 4).blk t).view.read (Elt F) G (ix2 p q)
      = G (ix2 (⟨1024 * (t.val / 16) + p.val, by have := lt64_0 t; omega⟩ : Fin 4096)
          (⟨1024 * (t.val / 4 % 4) + q.val, by have := lt64_0 t; omega⟩ : Fin 4096)) := by
  have hi := idx0_4 t
  rw [View.read_apply]
  show G _ = G _
  congr 1
  funext a
  apply Fin.ext
  match a with
  | ⟨0, _⟩ => show win0_4.index t 0 * 1024 + 1 * p.val = 1024 * (t.val / 16) + p.val; rw [hi.1]; omega
  | ⟨1, _⟩ => show win0_4.index t 1 * 1024 + 1 * q.val = 1024 * (t.val / 4 % 4) + q.val; rw [hi.2]; omega

/-- Every entry (r, s) of the output array lies in the block written back at the point (r / 1024, s / 1024, 3). -/
theorem cover0_4 (i : S4096x4096.Idx) :
    ∃ t : Fin cfg0.N, (cfg0.win 4).flush t = true ∧ i ∈ ((cfg0.win 4).blk t).view.set := by
  have h0 : (i 0 : Nat) < 4096 := (i 0).isLt
  have h1 : (i 1 : Nat) < 4096 := (i 1).isLt
  obtain ⟨t, ht⟩ : ∃ t : Fin cfg0.N, t.val = 16 * ((i 0 : Nat) / 1024) + 4 * ((i 1 : Nat) / 1024) + 3 :=
    ⟨⟨16 * ((i 0 : Nat) / 1024) + 4 * ((i 1 : Nat) / 1024) + 3, by rw [show cfg0.N = 64 from N_0]; omega⟩, rfl⟩
  have hi := idx0_4 t
  refine ⟨t, (flush0_4 t).mpr (by omega), ?_⟩
  show i ∈ ((View.whole main_v3).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [hi.1]; omega
  | ⟨1, _⟩ =>
    show win0_4.index t 1 * 1024 ≤ (i 1 : Nat) ∧ (i 1 : Nat) < win0_4.index t 1 * 1024 + 1024
    rw [hi.2]; omega

/-- The second product's output window: entry (p, q) of block (i, j) of any whole-array function. -/
theorem blk1_3_read (G : (⟨S4096x4096, .f32⟩ : BufTy).Contents (Elt F)) (t : Fin cfg1.N) (_ht : t.val % 4 = 3) (p q : Fin 1024) :
    ((cfg1.win 3).blk t).view.read (Elt F) G (ix2 p q)
      = G (ix2 (⟨1024 * (t.val / 16) + p.val, by have := lt64_1 t; omega⟩ : Fin 4096)
          (⟨1024 * (t.val / 4 % 4) + q.val, by have := lt64_1 t; omega⟩ : Fin 4096)) := by
  have hi := idx1_3 t
  rw [View.read_apply]
  show G _ = G _
  congr 1
  funext a
  apply Fin.ext
  match a with
  | ⟨0, _⟩ => show win1_3.index t 0 * 1024 + 1 * p.val = 1024 * (t.val / 16) + p.val; rw [hi.1]; omega
  | ⟨1, _⟩ => show win1_3.index t 1 * 1024 + 1 * q.val = 1024 * (t.val / 4 % 4) + q.val; rw [hi.2]; omega

/-- Every entry (r, s) of the output array lies in the block written back at the point (r / 1024, s / 1024, 3). -/
theorem cover1_3 (i : S4096x4096.Idx) :
    ∃ t : Fin cfg1.N, (cfg1.win 3).flush t = true ∧ i ∈ ((cfg1.win 3).blk t).view.set := by
  have h0 : (i 0 : Nat) < 4096 := (i 0).isLt
  have h1 : (i 1 : Nat) < 4096 := (i 1).isLt
  obtain ⟨t, ht⟩ : ∃ t : Fin cfg1.N, t.val = 16 * ((i 0 : Nat) / 1024) + 4 * ((i 1 : Nat) / 1024) + 3 :=
    ⟨⟨16 * ((i 0 : Nat) / 1024) + 4 * ((i 1 : Nat) / 1024) + 3, by rw [show cfg1.N = 64 from N_1]; omega⟩, rfl⟩
  have hi := idx1_3 t
  refine ⟨t, (flush1_3 t).mpr (by omega), ?_⟩
  show i ∈ ((View.whole main_v4).slice (win1_3.rect t)).set
  rw [View.set_slice_whole, Rect.mem_set_unit]
  intro a
  match a with
  | ⟨0, _⟩ =>
    show win1_3.index t 0 * 1024 ≤ (i 0 : Nat) ∧ (i 0 : Nat) < win1_3.index t 0 * 1024 + 1024
    rw [hi.1]; omega
  | ⟨1, _⟩ =>
    show win1_3.index t 1 * 1024 ≤ (i 1 : Nat) ∧ (i 1 : Nat) < win1_3.index t 1 * 1024 + 1024
    rw [hi.2]; omega

end Cert.Bridge.Blk

end
-- ==== Proof.Value.HostStretch.lean ====
/-
  What the host operations before the first product leave in the arrays the products read: the masked weights
  W = W_tensor ⊙ W_mask (an entrywise product), and Ux widened to 4096 columns by concatenating 2048 columns of the
  zero constant on its right — entry (a, b) of the concatenation is Ux's entry (a, b) for b < 2048 and the constant,
  whose value is the extended real 0, otherwise.
-/
import proofs.«153961_j40888088658618_1_alg».proof.Proof.KernelIdeal.R0Base
import proofs.«153961_j40888088658618_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.Bridge.Blk

open Cert.KernelIdeal Cert.KernelIdeal.Gen Cert.KernelIdeal.Fr
open Idealize.ShloMosaic Idealize.ShloMosaic.TcCoe Idealize.SL.Sem Idealize.ShloMosaic.ValueIdx Idealize.ShloMosaic.StableHlo

/-- The masked weights after the host operations: the entrywise product of the two weight arguments. -/
theorem after_v0_at (W₀ : Valuation τ sig (Elt Ideal)) (a b : Fin 4096) :
    (StableHlo.after hostOps0 W₀ (Proc.devRef .tc main_v0) : S4096x4096.Idx → EReal) (ix2 a b)
      = Cert.Bridge.W (W₀ (Proc.devRef .tc main_arg2)) (W₀ (Proc.devRef .tc main_arg5)) a b := by
  have e : (StableHlo.after hostOps0 W₀ (Proc.devRef .tc main_v0) : S4096x4096.Idx → EReal)
      = mulf (F := Ideal) (φ := .f32) (W₀ (Proc.devRef .tc main_arg2)) (W₀ (Proc.devRef .tc main_arg5)) := by
    after_results <;> rfl
  rw [e]; rfl

/-- The widened Ux after the host operations: Ux in the first 2048 columns, zero in the rest. -/
theorem after_v2_at (W₀ : Valuation τ sig (Elt Ideal)) (a b : Fin 4096) :
    (StableHlo.after hostOps0 W₀ (Proc.devRef .tc main_v2) : S4096x4096.Idx → EReal) (ix2 a b)
      = Cert.Bridge.pad (W₀ (Proc.devRef .tc main_arg0)) a b := by
  have e : (StableHlo.after hostOps0 W₀ (Proc.devRef .tc main_v2) : S4096x4096.Idx → EReal)
      = concatenate S4096x4096 1 [⟨S4096x2048, (W₀ (Proc.devRef .tc main_arg0) : S4096x2048.Idx → EReal)⟩,
          ⟨S4096x2048, broadcastInDim S4096x2048 ![] bcast_S_S4096x2048 (constant (F := Ideal) S_ .f32 0x00000000#32)⟩]
          concatenates_S4096x2048_S4096x2048_S4096x4096_d1 := by
    after_results <;> rfl
  rw [e]
  unfold Cert.Bridge.pad
  by_cases h : b.val < 2048
  · rw [dif_pos h]
    exact concatenate_pair_apply_left (1 : Fin S4096x4096.rank) _ _ concatenates_S4096x2048_S4096x2048_S4096x4096_d1
      (ix2 a b) rfl (ix2 a (⟨b.val, h⟩ : Fin 2048)) (fun d => by match d with | ⟨0, _⟩ => rfl | ⟨1, _⟩ => rfl)
  · rw [dif_neg h]
    have hb := b.isLt
    refine (concatenate_pair_apply_right (1 : Fin S4096x4096.rank) _ _ concatenates_S4096x2048_S4096x2048_S4096x4096_d1
      (ix2 a b) rfl rfl (ix2 a (⟨b.val - 2048, by omega⟩ : Fin 2048))
      (fun d hd => by match d with | ⟨0, _⟩ => rfl | ⟨1, _⟩ => exact absurd rfl hd)
      (by show (b.val - 2048) + 2048 = b.val; omega)).trans ?_
    exact Ideal.ofBits_zero_f32

end Cert.Bridge.Blk

end
-- ==== Proof.Value.KernelValue.lean ====
/-
  The kernel program's result array is the specification's.

  First product. Output block (bi, bj) is emitted at the fourth position of its run of grid points; its accumulator then
  holds (((0 + S₀) + S₁) + S₂) + S₃, and Sₖ — the k-th pair of input blocks multiplied — is the run of inner positions
  1024·k … 1024·k + 1023 of the whole product's sum for that entry, because the left block is block (bi, k) of ρ's argument s
  and the right block is block (k, bj) of W = W_tensor ⊙ W_mask. Four consecutive runs regroup to the whole sum. The bias
  block is block (0, bj) of b_odd and the third block is block (bi, bj) of Ux widened with zero columns, so the entry is
  ρ((∑ₖ ρ(s)·W + b_odd) + pad) = P. The blocks emitted tile the 4096 × 4096 array, so the array ends holding P.

  Second product. The same with left blocks from the array the first region left (which is P), right blocks (bj, k) of W
  read along their rows, and the bias b_even: the array ends holding ∑ₖ P·W(row) + b_even = out.
-/
import proofs.«153961_j40888088658618_1_alg».proof.Proof.KernelIdeal.Run
import proofs.«153961_j40888088658618_1_alg».proof.Proof.Value.Accum
import proofs.«153961_j40888088658618_1_alg».proof.Proof.Value.Blocks
import proofs.«153961_j40888088658618_1_alg».proof.Proof.Value.HostStretch

set_option maxRecDepth 16384

noncomputable section

namespace Cert.Bridge.KV

open Cert.KernelIdeal Cert.KernelIdeal.Gen Cert.KernelIdeal.Fr Cert.Bridge Cert.Bridge.Pay Cert.Bridge.Blk Cert.Bridge.Acc
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## Small congruences over coordinates given by their values -/

theorem ix2_congr {n0 n1 : Nat} {a a' : Fin n0} {b b' : Fin n1} (ha : a.val = a'.val) (hb : b.val = b'.val) :
    ix2 a b = ix2 a' b' := by rw [Fin.ext ha, Fin.ext hb]

theorem W_congr (Wt Wm : (⟨2, ![4096, 4096]⟩ : Shape).Idx → EReal) {a a' b b' : Fin 4096} (ha : a.val = a'.val) (hb : b.val = b'.val) :
    W Wt Wm a b = W Wt Wm a' b' := by rw [Fin.ext ha, Fin.ext hb]

theorem pad_congr (Ux : (⟨2, ![4096, 2048]⟩ : Shape).Idx → EReal) {a a' b b' : Fin 4096} (ha : a.val = a'.val) (hb : b.val = b'.val) :
    pad Ux a b = pad Ux a' b' := by rw [Fin.ext ha, Fin.ext hb]

theorem P_congr (Ux : (⟨2, ![4096, 2048]⟩ : Shape).Idx → EReal) (s Wt Wm : (⟨2, ![4096, 4096]⟩ : Shape).Idx → EReal)
    (bo : (⟨2, ![1, 4096]⟩ : Shape).Idx → EReal) {a a' b b' : Fin 4096} (ha : a.val = a'.val) (hb : b.val = b'.val) :
    P Ux s Wt Wm bo a b = P Ux s Wt Wm bo a' b' := by rw [Fin.ext ha, Fin.ext hb]

/-! ## What the first region finds -/

theorem V1_arg1 : V1 m ρ c main_arg1 = m ((c : Thread nD τ).loc main_arg1) := W1_of m ρ c main_arg1 (by decide)
theorem V1_arg4 : V1 m ρ c main_arg4 = m ((c : Thread nD τ).loc main_arg4) := W1_of m ρ c main_arg4 (by decide)
/-- The masked weights, as the host stretch leaves them. -/
theorem V1_v0 (a b : Fin 4096) :
    (V1 m ρ c main_v0 : S4096x4096.Idx → EReal) (ix2 a b) = W (m ((c : Thread nD τ).loc main_arg2)) (m ((c : Thread nD τ).loc main_arg5)) a b :=
  after_v0_at (W0 m ρ c) a b
/-- Ux widened with zero columns, as the host stretch leaves it. -/
theorem V1_v2 (a b : Fin 4096) :
    (V1 m ρ c main_v2 : S4096x4096.Idx → EReal) (ix2 a b) = pad (m ((c : Thread nD τ).loc main_arg0)) a b :=
  after_v2_at (W0 m ρ c) a b

/-! ## The first product -/

/-- One term of the first product's sum for entry (row, col). -/
def f0 (row col k : Fin 4096) : EReal :=
  rho (at44 (m ((c : Thread nD τ).loc main_arg1)) row k) * W (m ((c : Thread nD τ).loc main_arg2)) (m ((c : Thread nD τ).loc main_arg5)) k col

/-- The partial product of the point at position j of a block's run is the j-th run of 1024 terms of the whole sum. -/
theorem part0_run (u : Fin cfg0.N) (n j : ℕ) (hu : u.val = n + j) (hj : j < 4) (h0 : n % 4 = 0)
    (κ : Fin 1024 → Fin 4096) (hκ : ∀ a, (κ a).val = 1024 * j + a.val)
    (p q : Fin 1024) (row col : Fin 4096) (hrow : row.val = 1024 * (n / 16) + p.val) (hcol : col.val = 1024 * (n / 4 % 4) + q.val) :
    part0 (V1 m ρ) c u p q = ∑ a : Fin 1024, f0 m c row col (κ a) := by
  have hN : u.val < 64 := lt64_0 u
  unfold part0
  refine Finset.sum_congr rfl fun a _ => ?_
  show rho (iblk0 (V1 m ρ) c 0 u (ix2 p a)) * iblk0 (V1 m ρ) c 1 u (ix2 a q) = _
  rw [iblk0_0_at, iblk0_1_at, V1_arg1, V1_v0]
  unfold f0
  refine congrArg₂ (fun x y : EReal => x * y) (congrArg rho (congrArg _ (ix2_congr ?_ ?_))) (W_congr _ _ ?_ ?_)
  · show 1024 * (u.val / 16) + p.val = row.val; rw [hrow, hu]; omega
  · show 1024 * (u.val % 4) + a.val = (κ a).val; rw [hκ, hu]; omega
  · show 1024 * (u.val % 4) + a.val = (κ a).val; rw [hκ, hu]; omega
  · show 1024 * (u.val / 4 % 4) + q.val = col.val; rw [hcol, hu]; omega

/-- The array the first region leaves: P. -/
def G0 : Buf (Elt Ideal) ((cfg0.win 4).arr.view.loc (c.tc : Thread nD τ)) :=
  PArr (m ((c : Thread nD τ).loc main_arg0)) (m ((c : Thread nD τ).loc main_arg1)) (m ((c : Thread nD τ).loc main_arg2)) (m ((c : Thread nD τ).loc main_arg5)) (m ((c : Thread nD τ).loc main_arg4))

/-- What a flushing point writes back is its block of P. -/
theorem flushed0 (t : Fin cfg0.N) (hf : (cfg0.win 4).flush t = true) :
    (dat0 (V1 m ρ) c).flushed 4 t = ((cfg0.win 4).blk t).view.read (Elt Ideal) (G0 m c) := by
  have h3 : t.val % 4 = 3 := (flush0_4 t).mp hf
  have hN : t.val < 64 := lt64_0 t
  funext y
  obtain ⟨p, q, rfl⟩ : ∃ (p q : Fin 1024), y = ix2 p q := ⟨y 0, y 1, eq_ix2 y⟩
  rw [blk0_4_read (G0 m c) t h3 p q]
  show (cfg0.win 4).cut (grid0.coords t) ((dat0 (V1 m ρ) c).after 4 t) (ix2 p q) = _
  rw [after0_4]
  show ((outsAt0 (V1 m ρ) c t.val t.isLt).1 : Vec Ideal S1024x1024 .bf16) (ix2 p q) = _
  rw [out0_at (V1 m ρ) c t h3 p q]
  obtain ⟨n, hn⟩ : ∃ n, t.val = n + 3 := ⟨t.val - 3, by omega⟩
  obtain ⟨tv, htv⟩ := t
  dsimp only at hn h3 hN
  subst hn
  have hn0 : n % 4 = 0 := by omega
  rw [acc0_full (V1 m ρ) c n htv hn0 p q]
  have hrow : ((⟨1024 * ((n + 3) / 16) + p.val, by omega⟩ : Fin 4096)).val = 1024 * (n / 16) + p.val := by dsimp only; omega
  have hcol : ((⟨1024 * ((n + 3) / 4 % 4) + q.val, by omega⟩ : Fin 4096)).val = 1024 * (n / 4 % 4) + q.val := by dsimp only; omega
  rw [part0_run m ρ c ⟨n, by omega⟩ n 0 rfl (by omega) hn0 (fun a => ⟨a.val, by omega⟩) (fun a => by dsimp only; omega) p q _ _ hrow hcol,
    part0_run m ρ c ⟨n + 1, by omega⟩ n 1 rfl (by omega) hn0 (fun a => ⟨1024 + a.val, by omega⟩) (fun a => by dsimp only) p q _ _ hrow hcol,
    part0_run m ρ c ⟨n + 2, by omega⟩ n 2 rfl (by omega) hn0 (fun a => ⟨2048 + a.val, by omega⟩) (fun a => by dsimp only) p q _ _ hrow hcol,
    part0_run m ρ c ⟨n + 3, htv⟩ n 3 rfl (by omega) hn0 (fun a => ⟨3072 + a.val, by omega⟩) (fun a => by dsimp only) p q _ _ hrow hcol]
  rw [← sum_four_runs (f0 m c _ _)]
  show rho ((_ + iblk0 (V1 m ρ) c 3 ⟨n + 3, htv⟩ (ix2 (0 : Fin 1) q)) + iblk0 (V1 m ρ) c 2 ⟨n + 3, htv⟩ (ix2 p q)) = _
  rw [iblk0_3_at, iblk0_2_at, V1_arg4, V1_v2]
  rfl

/-- So the array the first region leaves is P. -/
theorem final0 : (dat0 (V1 m ρ) c).arrAt 4 cfg0.N = G0 m c :=
  (dat0 (V1 m ρ) c).arrAt_eq_of_cover 4 (G0 m c) (flushed0 m ρ c) fun i => cover0_4 i

/-! ## What the second region finds -/

/-- The array the first region left: P. -/
theorem V2_v3 : V2 m ρ c main_v3 = G0 m c := (W2_arr m ρ c 4).trans (final0 m ρ c)
/-- The masked weights: an input array of the first region, so as the host stretch left them. -/
theorem V2_v0 (a b : Fin 4096) :
    (V2 m ρ c main_v0 : S4096x4096.Idx → EReal) (ix2 a b) = W (m ((c : Thread nD τ).loc main_arg2)) (m ((c : Thread nD τ).loc main_arg5)) a b := by
  rw [show V2 m ρ c main_v0 = V1 m ρ c main_v0 from
    (W2_arr m ρ c 1).trans (((dat0 (V1 m ρ) c).arrAt_in 1 rfl _).trans (A_eq0 (V1 m ρ) c 1))]
  exact V1_v0 m ρ c a b
theorem V2_arg3 : V2 m ρ c main_arg3 = m ((c : Thread nD τ).loc main_arg3) :=
  (W2_of_ne m ρ c main_arg3 (by decide)).trans (W1_of m ρ c main_arg3 (by decide))

/-! ## The second product -/

/-- One term of the second product's sum for entry (row, col): P's row against W's ROW col. -/
def f1 (row col k : Fin 4096) : EReal :=
  P (m ((c : Thread nD τ).loc main_arg0)) (m ((c : Thread nD τ).loc main_arg1)) (m ((c : Thread nD τ).loc main_arg2)) (m ((c : Thread nD τ).loc main_arg5)) (m ((c : Thread nD τ).loc main_arg4)) row k * W (m ((c : Thread nD τ).loc main_arg2)) (m ((c : Thread nD τ).loc main_arg5)) col k

theorem part1_run (u : Fin cfg1.N) (n j : ℕ) (hu : u.val = n + j) (hj : j < 4) (h0 : n % 4 = 0)
    (κ : Fin 1024 → Fin 4096) (hκ : ∀ a, (κ a).val = 1024 * j + a.val)
    (p q : Fin 1024) (row col : Fin 4096) (hrow : row.val = 1024 * (n / 16) + p.val) (hcol : col.val = 1024 * (n / 4 % 4) + q.val) :
    part1 (V2 m ρ) c u p q = ∑ a : Fin 1024, f1 m c row col (κ a) := by
  have hN : u.val < 64 := lt64_1 u
  unfold part1
  refine Finset.sum_congr rfl fun a _ => ?_
  dsimp only [a1, b1]
  rw [iblk1_0_at, iblk1_1_at, V2_v3, V2_v0]
  unfold f1
  refine congrArg₂ (fun x y : EReal => x * y) (P_congr _ _ _ _ _ ?_ ?_) (W_congr _ _ ?_ ?_)
  · show 1024 * (u.val / 16) + p.val = row.val; rw [hrow, hu]; omega
  · show 1024 * (u.val % 4) + a.val = (κ a).val; rw [hκ, hu]; omega
  · show 1024 * (u.val / 4 % 4) + q.val = col.val; rw [hcol, hu]; omega
  · show 1024 * (u.val % 4) + a.val = (κ a).val; rw [hκ, hu]; omega

/-- The array the second region leaves: the specification's result. -/
def G1 : Buf (Elt Ideal) ((cfg1.win 3).arr.view.loc (c.tc : Thread nD τ)) :=
  outArr (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))

theorem flushed1 (t : Fin cfg1.N) (hf : (cfg1.win 3).flush t = true) :
    (dat1 (V2 m ρ) c).flushed 3 t = ((cfg1.win 3).blk t).view.read (Elt Ideal) (G1 m c) := by
  have h3 : t.val % 4 = 3 := (flush1_3 t).mp hf
  have hN : t.val < 64 := lt64_1 t
  funext y
  obtain ⟨p, q, rfl⟩ : ∃ (p q : Fin 1024), y = ix2 p q := ⟨y 0, y 1, eq_ix2 y⟩
  rw [blk1_3_read (G1 m c) t h3 p q]
  show (cfg1.win 3).cut (grid1.coords t) ((dat1 (V2 m ρ) c).after 3 t) (ix2 p q) = _
  rw [after1_3]
  show ((outsAt1 (V2 m ρ) c t.val t.isLt).1 : Vec Ideal S1024x1024 .f32) (ix2 p q) = _
  rw [out1_at (V2 m ρ) c t h3 p q]
  obtain ⟨n, hn⟩ : ∃ n, t.val = n + 3 := ⟨t.val - 3, by omega⟩
  obtain ⟨tv, htv⟩ := t
  dsimp only at hn h3 hN
  subst hn
  have hn0 : n % 4 = 0 := by omega
  rw [acc1_full (V2 m ρ) c n htv hn0 p q]
  have hrow : ((⟨1024 * ((n + 3) / 16) + p.val, by omega⟩ : Fin 4096)).val = 1024 * (n / 16) + p.val := by dsimp only; omega
  have hcol : ((⟨1024 * ((n + 3) / 4 % 4) + q.val, by omega⟩ : Fin 4096)).val = 1024 * (n / 4 % 4) + q.val := by dsimp only; omega
  rw [part1_run m ρ c ⟨n, by omega⟩ n 0 rfl (by omega) hn0 (fun a => ⟨a.val, by omega⟩) (fun a => by dsimp only; omega) p q _ _ hrow hcol,
    part1_run m ρ c ⟨n + 1, by omega⟩ n 1 rfl (by omega) hn0 (fun a => ⟨1024 + a.val, by omega⟩) (fun a => by dsimp only) p q _ _ hrow hcol,
    part1_run m ρ c ⟨n + 2, by omega⟩ n 2 rfl (by omega) hn0 (fun a => ⟨2048 + a.val, by omega⟩) (fun a => by dsimp only) p q _ _ hrow hcol,
    part1_run m ρ c ⟨n + 3, htv⟩ n 3 rfl (by omega) hn0 (fun a => ⟨3072 + a.val, by omega⟩) (fun a => by dsimp only) p q _ _ hrow hcol]
  rw [← sum_four_runs (f1 m c _ _)]
  show _ + iblk1 (V2 m ρ) c 2 ⟨n + 3, htv⟩ (ix2 (0 : Fin 1) q) = _
  rw [iblk1_2_at, V2_arg3]
  rfl

/-- So the array the second region leaves is the specification's result. -/
theorem final1 : (dat1 (V2 m ρ) c).arrAt 3 cfg1.N = G1 m c :=
  (dat1 (V2 m ρ) c).arrAt_eq_of_cover 3 (G1 m c) (flushed1 m ρ c) fun i => cover1_3 i

/-! ## The run, read -/

/-- THE KERNEL'S RUN, READ. Every weakly fair execution of the program ends with its result array at the specification's
    result of the six argument arrays, and the arguments as launched. -/
theorem kernel_run : θ_run defs (onTc (τ := τ) (main (F := Ideal))) ⟨m, fun _ => 0, ρ⟩ (fun r => ∀ c : Dev nD,
      r.2.mem ((c.tc : Thread nD τ).loc main_v4)
        = outArr (m ((c.tc : Thread nD τ).loc main_arg0)) (m ((c.tc : Thread nD τ).loc main_arg1)) (m ((c.tc : Thread nD τ).loc main_arg2))
            (m ((c.tc : Thread nD τ).loc main_arg5)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((W3_main_v4 m ρ c).trans (final1 m ρ c)), (h c).2⟩) (run_named m ρ)

end Cert.Bridge.KV

end
-- ==== Proof.lean ====
/-
  The certificate's claim, assembled.

  Both programs compute, entry by entry over the extended reals,

      out = ρ( ρ(s) · W + b_odd + [Ux | 0] ) · Wᵀ + b_even ,     W = W_tensor ⊙ W_mask ,   ρ(x) = σ(4·(x − ½)) ,

  the kernel as two blocked matrix products, each accumulated over four positions of the contracted axis in a VMEM
  accumulator and finished with its bias (and, for the first, the padded input and ρ), the reference as two whole matrix
  products with a scatter-add of Ux into the first 2048 columns in between. At the ideal instance a change of float
  format is the identity, a blocked sum is the whole sum regrouped, x + 0 = x, and the kernel's one-operation logistic is
  the reference's 1 / (1 + e^{−x}); none of these needs the inputs to be finite, so the precondition is never opened.

  The three frames: each kernel program's is its run (host stretch, first region, second region) with the result's clause
  dropped; the reference's is its run with the result dropped. The ideal pass rewrote nothing, so `preserves` is `True`.
-/
import proofs.«153961_j40888088658618_1_alg».proof.Proof.Kernel.Run
import proofs.«153961_j40888088658618_1_alg».proof.Proof.KernelIdeal.Run
import proofs.«153961_j40888088658618_1_alg».proof.Proof.RefSide
import proofs.«153961_j40888088658618_1_alg».proof.Proof.Value.KernelValue
import proofs.«153961_j40888088658618_1_alg».proof.Defs
import proofs.«153961_j40888088658618_1_alg».proof.Proof.Gen.Kernel
import proofs.«153961_j40888088658618_1_alg».proof.Proof.Gen.KernelIdeal
import proofs.«153961_j40888088658618_1_alg».proof.Proof.Gen.ReferenceIdeal
import proofs.«153961_j40888088658618_1_alg».proof.Proof.Gen.Pre_finite_inputs

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := Cert.Bridge.Ref.frame_ri

theorem preserves : Cert.preserves_Kernel_KernelIdeal := trivial

/-- From memories agreeing on the six arguments both programs end with the same array: the kernel's run and the
    reference's run are both stated at ONE term, the specification's result of the kernel's argument arrays. -/
theorem algebraic : Cert.algebraic_KernelIdeal_ReferenceIdeal := by
  intro m ρ m' ρ' _ hagree
  refine ⟨fun c => Cert.Bridge.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Bridge.KV.kernel_run m ρ, ?_⟩
  refine (θ_run Cert.ReferenceIdeal.defs _ _).mono (fun _ h c => ⟨(h c).1.trans ?_, (h c).2⟩) (Cert.Bridge.Ref.ref_run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
